-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x64 : Shape := ⟨3, ![8, 4096, 64]⟩
abbrev S_ : Shape := ⟨0, ![]⟩

class Facts : Prop where
  bcast_S_S8x4096x64 : S_.BroadcastsInDim S8x4096x64 (![] : Fin 0 → Fin S8x4096x64.rank)
  reducesTo_S8x4096x64_S_d0_1_2 : S8x4096x64.ReducesTo [0, 1, 2] S_
  h_S_ : 0 < S_.numel

variable [Facts]

def fn {F : FTy → Type} [FloatOps F] (main_arg0 : FVec F S8x4096x64 .f32) (main_arg1 : FVec F S8x4096x64 .f32) : IVec S_ 1 :=
  let main_v0 : FVec F S8x4096x64 .f32 := Host.absf main_arg0
  let main_cst : FVec F S_ .f32 := constant S_ .f32 0x7F800000#32
  let main_v1 : FVec F S8x4096x64 .f32 := broadcastInDim S8x4096x64 ![] bcast_S_S8x4096x64 main_cst
  let main_v2 : IVec S8x4096x64 1 := cmpf .olt main_v0 main_v1
  let main_c : IVec S_ 1 := constantI S_ 1 1#1
  let main_v3 : IVec S_ 1 := (fun x v => Host.reduce IntOp.andi x v reducesTo_S8x4096x64_S_d0_1_2 h_S_) main_v2 main_c
  let main_v4 : FVec F S8x4096x64 .f32 := Host.absf main_arg1
  let main_cst_0 : FVec F S_ .f32 := constant S_ .f32 0x7F800000#32
  let main_v5 : FVec F S8x4096x64 .f32 := broadcastInDim S8x4096x64 ![] bcast_S_S8x4096x64 main_cst_0
  let main_v6 : IVec S8x4096x64 1 := cmpf .olt main_v4 main_v5
  let main_c_1 : IVec S_ 1 := constantI S_ 1 1#1
  let main_v7 : IVec S_ 1 := (fun x v => Host.reduce IntOp.andi x v reducesTo_S8x4096x64_S_d0_1_2 h_S_) main_v6 main_c_1
  let main_v8 : IVec S_ 1 := andi main_v3 main_v7
  main_v8
-- ==== Kernel.lean ====
abbrev S8x4096x64 : Shape := ⟨3, ![8, 4096, 64]⟩
abbrev S8x4096 : Shape := ⟨2, ![8, 4096]⟩
abbrev S8x512x64 : Shape := ⟨3, ![8, 512, 64]⟩
abbrev S8x512 : Shape := ⟨2, ![8, 512]⟩
abbrev S8x512x512 : Shape := ⟨3, ![8, 512, 512]⟩
abbrev S8x512x1 : Shape := ⟨3, ![8, 512, 1]⟩
abbrev S8x1x512 : Shape := ⟨3, ![8, 1, 512]⟩
abbrev S_ : Shape := ⟨0, ![]⟩

abbrev nBuf : Space → Nat
  | .hbm => 11
  | .vmem => 14
  | .smem => 0
  | _ => 0

abbrev bufTy : (tb : Table) → Fin (tcTables nBuf tb) → BufTy
  | .hbm, ⟨0, _⟩ => ⟨S8x4096x64, .f32⟩
  | .hbm, ⟨1, _⟩ => ⟨S8x4096x64, .f32⟩
  | .hbm, ⟨2, _⟩ => ⟨S8x4096x64, .bf16⟩
  | .hbm, ⟨3, _⟩ => ⟨S8x4096x64, .bf16⟩
  | .hbm, ⟨4, _⟩ => ⟨S8x4096, .f32⟩
  | .hbm, ⟨5, _⟩ => ⟨S8x4096, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S8x512x64, .bf16⟩
  | .local _ .vmem, ⟨1, _⟩ => ⟨S8x512x64, .bf16⟩
  | .local _ .vmem, ⟨2, _⟩ => ⟨S8x512x64, .bf16⟩
  | .local _ .vmem, ⟨3, _⟩ => ⟨S8x512x64, .bf16⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512x64, .bf16⟩
  | .local _ .vmem, ⟨8, _⟩ => ⟨S8x512x64, .bf16⟩
  | .local _ .vmem, ⟨9, _⟩ => ⟨S8x512x64, .bf16⟩
  | .local _ .vmem, ⟨10, _⟩ => ⟨S8x512x64, .bf16⟩
  | .local _ .vmem, ⟨11, _⟩ => ⟨S8x512, .f32⟩
  | .local _ .vmem, ⟨12, _⟩ => ⟨S8x512, .f32⟩
  | .local _ .vmem, ⟨13, _⟩ => ⟨S8x512, .f32⟩
  | _, _ => ⟨S8x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v31 : BitVec 1 := Scalar.cmpi .eq arg1 c7_i32
  let v32 : BitVec 32 := Scalar.extui v31
  let c0_i32_15 : BitVec 32 := 0#32
  let v33 : BitVec 1 := Scalar.cmpi .ne v32 c0_i32_15
  v33

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S8x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x512x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v31 : BitVec 1 := Scalar.cmpi .eq arg1 c7_i32
  let v32 : BitVec 32 := Scalar.extui v31
  let c0_i32_15 : BitVec 32 := 0#32
  let v33 : BitVec 1 := Scalar.cmpi .ne v32 c0_i32_15
  v33

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S8x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S8x512x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S8x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  bitsLt_bf16_f32 : FTy.bits .bf16 < FTy.bits .f32
  inb_S8x512_S8x512_0_0 : ∀ a, (![0, 0] : Fin 2 → Nat) a + S8x512.size a ≤ S8x512.size a
  h_S8x512 : 0 < S8x512.numel
  shapeCasts_S8x512_S8x512 : S8x512.ShapeCasts S8x512
  inb_S8x512x64_S8x512x64_0_0_0 : ∀ a, (![0, 0, 0] : Fin 3 → Nat) a + S8x512x64.size a ≤ S8x512x64.size a
  h_S8x512x64 : 0 < S8x512x64.numel
  shapeCasts_S8x512x64_S8x512x64 : S8x512x64.ShapeCasts S8x512x64
  reduces_S8x512x64_S8x512 : S8x512x64.Reduces [2] S8x512
  shapeCasts_S8x512_S8x512x1 : S8x512.ShapeCasts S8x512x1
  shapeCasts_S8x512_S8x1x512 : S8x512.ShapeCasts S8x1x512
  broadcasts_S8x512x1_S8x512x512 : S8x512x1.Broadcasts S8x512x512
  broadcasts_S8x1x512_S8x512x512 : S8x1x512.Broadcasts S8x512x512
  reduces_S8x512x512_S8x512 : S8x512x512.Reduces [2] S8x512
  reducesTo_S8x4096_S_d0_1 : S8x4096.ReducesTo [0, 1] S_
  h_S_ : 0 < S_.numel
  dot_S8x512x64_S8x512x64_S8x512x512_2_2_1_1_0_0_wf : DotDims.WF S8x512x64 S8x512x64 S8x512x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x64.size a ≤ S8x4096x64.size a
  hwx0_0 : ∀ i : grid0.Coords, EltTy.bits .bf16 = 32 ∨ (Rect.block (s := S8x4096x64) S8x512x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512x64.size a ≤ S8x4096x64.size a
  hwx0_1 : ∀ i : grid0.Coords, EltTy.bits .bf16 = 32 ∨ (Rect.block (s := S8x4096x64) S8x512x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S8x4096.size a
  hwx0_2 : ∀ i : grid0.Coords, EltTy.bits .f32 = 32 ∨ (Rect.block (s := S8x4096) S8x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x512x64.size a ≤ S8x4096x64.size a
  hwx1_0 : ∀ i : grid1.Coords, EltTy.bits .bf16 = 32 ∨ (Rect.block (s := S8x4096x64) S8x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x512x64.size a ≤ S8x4096x64.size a
  hwx1_1 : ∀ i : grid1.Coords, EltTy.bits .bf16 = 32 ∨ (Rect.block (s := S8x4096x64) S8x512x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x512.size a ≤ S8x4096.size a
  hwx1_2 : ∀ i : grid1.Coords, EltTy.bits .f32 = 32 ∨ (Rect.block (s := S8x4096) S8x512.size (cc1_transform_2 i) (hinb1_2 i)).WholeWords (EltTy.packing .f32)

variable [Facts₀]

def dot_S8x512x64_S8x512x64_S8x512x512_2_2_1_1_0_0 : DotDims S8x512x64 S8x512x64 S8x512x512 where
  lhsContracting := [2]
  rhsContracting := [2]
  lhsNonContracting := [1]
  rhsNonContracting := [1]
  lhsBatch := [0]
  rhsBatch := [0]
  wf := dot_S8x512x64_S8x512x64_S8x512x512_2_2_1_1_0_0_wf

abbrev win0_0 : Pipeline.Window sig grid0 :=
  Pipeline.Window.ofSpec (Memref.whole main_v0) S8x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v1) S8x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S8x512x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S8x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8x4096x64 : Shape := ⟨3, ![8, 4096, 64]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩

abbrev nBuf : Space → Nat
  | .hbm => 31
  | .vmem => 0
  | .smem => 0
  | _ => 0

abbrev bufTy : (tb : Table) → Fin (tcTables nBuf tb) → BufTy
  | .hbm, ⟨0, _⟩ => ⟨S8x4096x64, .f32⟩
  | .hbm, ⟨1, _⟩ => ⟨S8x4096x64, .f32⟩
  | .hbm, ⟨2, _⟩ => ⟨S8x4096x64, .f32⟩
  | .hbm, ⟨3, _⟩ => ⟨S_, .f32⟩
  | .hbm, ⟨4, _⟩ => ⟨S8x4096, .f32⟩
  | .hbm, ⟨5, _⟩ => ⟨S8x4096x64, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096x4096, .f32⟩
  | .hbm, ⟨20, _⟩ => ⟨S8x4096x4096, .f32⟩
  | .hbm, ⟨21, _⟩ => ⟨S8x4096x4096, .f32⟩
  | .hbm, ⟨22, _⟩ => ⟨S_, .f32⟩
  | .hbm, ⟨23, _⟩ => ⟨S8x4096, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S8x4096, .f32⟩
  | .hbm, ⟨28, _⟩ => ⟨S_, .f32⟩
  | .hbm, ⟨29, _⟩ => ⟨S_, .f32⟩
  | .hbm, ⟨30, _⟩ => ⟨S_, .f32⟩
  | _, _ => ⟨S8x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  reducesTo_S8x4096x64_S8x4096_d2 : S8x4096x64.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096_S_d0_1 : S8x4096.ReducesTo [0, 1] S_
  reducesTo_S8x4096x4096_S8x4096_d1 : S8x4096x4096.ReducesTo [1] S8x4096
  dot_S8x4096x64_S8x4096x64_S8x4096x4096_2_2_1_1_0_0_wf : DotDims.WF S8x4096x64 S8x4096x64 S8x4096x4096 [2] [2] [1] [1] [0] [0]

variable [Facts₀]

def dot_S8x4096x64_S8x4096x64_S8x4096x4096_2_2_1_1_0_0 : DotDims S8x4096x64 S8x4096x64 S8x4096x4096 where
  lhsContracting := [2]
  rhsContracting := [2]
  lhsNonContracting := [1]
  rhsNonContracting := [1]
  lhsBatch := [0]
  rhsBatch := [0]
  wf := dot_S8x4096x64_S8x4096x64_S8x4096x4096_2_2_1_1_0_0_wf

class Facts : Prop extends Facts₀ where

variable [Facts]
-- ==== Proof.LibWholeStore.lean ====
/-
  One store through the whole-shape rectangle reads back as its payload, whatever the buffer held; and a load through
  that rectangle reads the contents. Stated over an abstract shape, so that applying it to a block of production
  extents never evaluates the rectangle.
-/
import Idealize.ShloMosaic.Lib.Pipeline.Value
import Idealize.ShloMosaic.Lib.Pipeline.FrameBody

namespace Idealize.ShloMosaic.WholeStore

open Idealize.ShloMosaic

variable {Val : EltTy → Type} [∀ e, Nonempty (Val e)] {sig : RefSig} {κ : Kind} {sp : Space} {S : Shape} {e : EltTy}

/-- After one store of `w` through the whole-shape rectangle the view reads `w`. -/
theorem read_writes_whole (v : View sig κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero h inb y⟩),
    View.canon_unit_zero h]

/-- A load through the whole-shape rectangle reads the view's contents. -/
theorem readAt_whole (v : View sig κ sp S e) (f : v.ty.Contents Val) {off : Fin S.rank → Nat} (h : off = fun _ => 0)
    (inb : ∀ a, off a + S.size a ≤ S.size a) :
    v.readAt Val (Rect.unit off S.size inb).toLoadRect f = v.read Val f := by
  rw [View.readAt_eq_ld, View.ld_unit_zero h]

end Idealize.ShloMosaic.WholeStore
-- ==== Proof.LibWholeStoreLast.lean ====
/-
  A store through the whole-shape rectangle, made LAST, decides what the view reads: after any earlier stores, the view
  reads the last store's payload. Stated over an abstract shape, so that applying it to a block of production extents
  never evaluates the rectangle. The zero offsets of ranks two and three, as the printed programs spell them.
-/
import Idealize.ShloMosaic.Lib.Pipeline.Value
import Idealize.ShloMosaic.Lib.Pipeline.FrameBody

namespace Idealize.ShloMosaic.WholeStore

open Idealize.ShloMosaic

variable {Val : EltTy → Type} [∀ e, Nonempty (Val e)] {sig : RefSig} {κ : Kind} {sp : Space} {S : Shape} {e : EltTy}

/-- After any stores `L` and then one store of `w` through the whole-shape rectangle, the view reads `w`. -/
theorem read_writes_whole_last (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

/-- The offset of a rank-2 whole-shape rectangle, as printed, is zero on every axis. -/
theorem off2_zero : (![0, 0] : Fin 2 → Nat) = fun _ => 0 := by
  funext a; match a with | ⟨0, _⟩ => rfl | ⟨1, _⟩ => rfl

/-- The offset of a rank-3 whole-shape rectangle, as printed, is zero on every axis. -/
theorem off3_zero : (![0, 0, 0] : Fin 3 → Nat) = fun _ => 0 := by
  funext a; match a with | ⟨0, _⟩ => rfl | ⟨1, _⟩ => rfl | ⟨2, _⟩ => rfl

end Idealize.ShloMosaic.WholeStore
-- ==== Proof.K.Region0.lean ====
/-
  The first pallas_call of the program: a grid of 8 x 8 points, point (i, j) holding 512 query
  points (tile i of the first operand) against 512 key points (tile j of the second). The body keeps, in a scratch buffer
  carried along a grid row, the running minimum over the key tiles seen so far of each query point's distance to the
  key points: refilled with +infinity at the row's first point, folded at every point, copied to the output block at the
  row's last point. This module runs the body in its three cases, names what the scratch holds after every point of the
  grid, and proves the pipeline's obligation for the body at every point, for any float instance.
-/
import proofs.«130966_j6863357739536_1_alg».proof.Proof.Gen.Kernel.Launch
import proofs.«130966_j6863357739536_1_alg».proof.Proof.Gen.Kernel.Skeleton
import proofs.«130966_j6863357739536_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«130966_j6863357739536_1_alg».proof.Proof.LibWholeStore
import proofs.«130966_j6863357739536_1_alg».proof.Proof.LibWholeStoreLast

set_option maxRecDepth 16384

noncomputable section

namespace Cert.Kernel.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's first conditional: the point is the first of its row of the grid (key tile 0). -/
abbrev first0 (i : grid0.Coords) : Prop := (Scalar.cmpi .ne (Scalar.extui (Scalar.cmpi .eq (BitVec.ofNat 32 (i 1).val) 0#32)) 0#32) = 1#1
/-- The body's second conditional: the point is the last of its row of the grid (key tile 7). -/
abbrev last0 (i : grid0.Coords) : Prop := k0_cond2 i = 1#1

set_option maxHeartbeats 1000000 in
/-- At the first key tile the body refills the running minimum with +infinity, whatever it held, then folds this tile
    in: the scratch ends at the tile's minimum taken from +infinity; the blocks and the output buffer are untouched. -/
theorem body0_first (c : Dev nD) (E : Set ℕ) (i : grid0.Coords) (arg2 : Memref sig .tc .vmem S8x512x64 .bf16) (harg2 : arg2.IsWhole) (arg3 : Memref sig .tc .vmem S8x512x64 .bf16) (harg3 : arg3.IsWhole) (arg4 : Memref sig .tc .vmem S8x512 .f32) (harg4 : arg4.IsWhole) (arg5 : Memref sig .tc .vmem S8x512 .f32) (harg5 : arg5.IsWhole)
    (hc0 : first0 i) (hc1 : ¬last0 i) (x0 x1 : Vec F S8x512x64 .bf16) (xo : Vec F S8x512 .f32) (K : PUnit → sProp 𝕄) :
    iprop(owns (c : Thread nD τ) arg2 fullShare x0 ∗ owns (c : Thread nD τ) arg3 fullShare x1 ∗ owns (c : Thread nD τ) arg4 fullShare xo ∗ (∃ d, owns (c : Thread nD τ) arg5 fullShare d)
        ∗ (iprop(owns (c : Thread nD τ) arg2 fullShare x0 ∗ owns (c : Thread nD τ) arg3 fullShare x1 ∗ owns (c : Thread nD τ) arg4 fullShare xo ∗ owns (c : Thread nD τ) arg5 fullShare (k0_pay2 x0 x1 k0_pay1)) -∗ K ⟨⟩))
      ⊢ wp frame (wpE (defs₀ (F := F)) Variants.none c none) E (cc0__cdist_min_kernel i arg2 harg2 arg3 harg3 arg4 harg4 arg5 harg5) K := by
  simp only [cc0__cdist_min_kernel_eq_skeleton]; unfold cc0__cdist_min_kernel_skel
  unfold owns
  iintro ⟨⟨%f0, %hf0, H0⟩, ⟨%f1, %hf1, H1⟩, ⟨%fo, %hfo, HO⟩, ⟨%ds, %fs, -, HS⟩, Hk⟩
  obtain rfl := harg2.eq_unread hf0; obtain rfl := harg3.eq_unread hf1; obtain rfl := harg4.eq_unread hfo
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr; · ipureintro; exact harg4.read_unread _
    iexact HO
  iexists _; isplitr
  swap; · iexact HS
  ipureintro
  rw [WholeStore.read_writes_whole_last _ _ WholeStore.off2_zero]
  rw [WholeStore.readAt_whole _ _ WholeStore.off3_zero, WholeStore.readAt_whole _ _ WholeStore.off3_zero, harg2.read_unread, harg3.read_unread]
  sl_unfold_run_names
  rw [View.readCov_unit_zero _ WholeStore.off2_zero]

set_option maxHeartbeats 1000000 in
/-- At a middle key tile the body folds the tile into the running minimum the tile before left. -/
theorem body0_mid (c : Dev nD) (E : Set ℕ) (i : grid0.Coords) (arg2 : Memref sig .tc .vmem S8x512x64 .bf16) (harg2 : arg2.IsWhole) (arg3 : Memref sig .tc .vmem S8x512x64 .bf16) (harg3 : arg3.IsWhole) (arg4 : Memref sig .tc .vmem S8x512 .f32) (harg4 : arg4.IsWhole) (arg5 : Memref sig .tc .vmem S8x512 .f32) (harg5 : arg5.IsWhole)
    (hc0 : ¬first0 i) (hc1 : ¬last0 i) (x0 x1 : Vec F S8x512x64 .bf16) (xo xs : Vec F S8x512 .f32) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare xs
        ∗ (iprop(owns (c : Thread nD τ) arg2 fullShare x0 ∗ owns (c : Thread nD τ) arg3 fullShare x1 ∗ owns (c : Thread nD τ) arg4 fullShare xo ∗ owns (c : Thread nD τ) arg5 fullShare (k0_pay2 x0 x1 xs)) -∗ K ⟨⟩))
      ⊢ wp frame (wpE (defs₀ (F := F)) Variants.none c none) E (cc0__cdist_min_kernel i arg2 harg2 arg3 harg3 arg4 harg4 arg5 harg5) K := by
  simp only [cc0__cdist_min_kernel_eq_skeleton]; unfold cc0__cdist_min_kernel_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr; · ipureintro; exact harg4.read_unread _
    iexact HO
  iexists _; isplitr
  swap; · iexact HS
  ipureintro
  rw [WholeStore.read_writes_whole _ _ WholeStore.off2_zero]
  rw [WholeStore.readAt_whole _ _ WholeStore.off3_zero, WholeStore.readAt_whole _ _ WholeStore.off3_zero, WholeStore.readAt_whole _ _ WholeStore.off2_zero, harg2.read_unread, harg3.read_unread, harg5.read_unread]

set_option maxHeartbeats 1000000 in
/-- At the last key tile the body folds the tile in and copies the finished running minimum to the output buffer. -/
theorem body0_last (c : Dev nD) (E : Set ℕ) (i : grid0.Coords) (arg2 : Memref sig .tc .vmem S8x512x64 .bf16) (harg2 : arg2.IsWhole) (arg3 : Memref sig .tc .vmem S8x512x64 .bf16) (harg3 : arg3.IsWhole) (arg4 : Memref sig .tc .vmem S8x512 .f32) (harg4 : arg4.IsWhole) (arg5 : Memref sig .tc .vmem S8x512 .f32) (harg5 : arg5.IsWhole)
    (hc0 : ¬first0 i) (hc1 : last0 i) (x0 x1 : Vec F S8x512x64 .bf16) (xs : Vec F S8x512 .f32) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (k0_pay2 x0 x1 xs) ∗ owns (c : Thread nD τ) arg5 fullShare (k0_pay2 x0 x1 xs)) -∗ K ⟨⟩))
      ⊢ wp frame (wpE (defs₀ (F := F)) Variants.none c none) E (cc0__cdist_min_kernel i arg2 harg2 arg3 harg3 arg4 harg4 arg5 harg5) K := by
  simp only [cc0__cdist_min_kernel_eq_skeleton]; unfold cc0__cdist_min_kernel_skel
  unfold owns
  iintro ⟨⟨%f0, %hf0, H0⟩, ⟨%f1, %hf1, H1⟩, ⟨%dO, %fo, -, HO⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr
    swap; · iexact HO
    ipureintro
    rw [WholeStore.read_writes_whole _ _ WholeStore.off2_zero]
    sl_unfold_run_names
    rw [View.readCov_unit_zero _ WholeStore.off2_zero]
    rw [WholeStore.readAt_whole _ _ WholeStore.off3_zero, WholeStore.readAt_whole _ _ WholeStore.off3_zero, WholeStore.readAt_whole _ _ WholeStore.off2_zero, harg2.read_unread, harg3.read_unread, harg5.read_unread]
  iexists _; isplitr
  swap; · iexact HS
  ipureintro
  sl_unfold_run_names
  rw [WholeStore.read_writes_whole _ _ WholeStore.off2_zero]
  rw [WholeStore.readAt_whole _ _ WholeStore.off3_zero, WholeStore.readAt_whole _ _ WholeStore.off3_zero, WholeStore.readAt_whole _ _ WholeStore.off2_zero, harg2.read_unread, harg3.read_unread, harg5.read_unread]

/-! ## The windows' blocks, the schedule, the buffers -/

section Region

variable (V : (c : Dev nD) → (b : Ref sig .tc) → Buf (Elt F) ((c : Thread nD τ).loc b))

/-- Window `w`'s block at grid point `t`, read off its array as the region finds it: for the query window 512 rows of
    tile `t / 8`, for the key window 512 rows of tile `t % 8`. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The query window's staging buffer holds its block at every point: it is fetched at the first point of each grid row
    and its block index does not move along the row. -/
theorem found0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The key window's staging buffer holds its block at every point (it is fetched at every point). -/
theorem found0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- Point `t` is the first of its grid row exactly when `t` is a multiple of 8 — decided over the 64 points. -/
theorem first0_iff : ∀ t : Fin cfg0.N, first0 (grid0.coords t) ↔ t.val % 8 = 0 :=
  (by decide +kernel : ∀ t : Fin grid0.N, first0 (grid0.coords t) ↔ t.val % 8 = 0)
/-- Point `t` is the last of its grid row exactly when `t` is 7 modulo 8. -/
theorem last0_iff : ∀ t : Fin cfg0.N, last0 (grid0.coords t) ↔ t.val % 8 = 7 :=
  (by decide +kernel : ∀ t : Fin grid0.N, last0 (grid0.coords t) ↔ t.val % 8 = 7)

/-- The input windows are never idle. -/
theorem live0_0 : ∀ t : Fin cfg0.N, cfg0.idle 0 (grid0.coords t) = false := by decide +kernel
theorem live0_1 : ∀ t : Fin cfg0.N, cfg0.idle 1 (grid0.coords t) = false := by decide +kernel
/-- Away from the last point of a grid row the output window is idle and is not written back. -/
theorem idle0_2 : ∀ t : Fin cfg0.N, ¬last0 (grid0.coords t) → cfg0.idle 2 (grid0.coords t) = true := by decide +kernel
theorem keep0_2 : ∀ t : Fin cfg0.N, ¬last0 (grid0.coords t) → (cfg0.win 2).flush t = false := by decide +kernel
/-- At the last point of a grid row it is live. -/
theorem live0_2 : ∀ t : Fin cfg0.N, last0 (grid0.coords t) → cfg0.idle 2 (grid0.coords t) = false := by decide +kernel

/-- Each window's current staging memref at point `t`, as the pipeline passes it to the body, and its wholeness. -/
abbrev ms0_0 (t : Fin cfg0.N) : Memref sig .tc .vmem S8x512x64 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x512x64 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x512 .f32 := win0_2.stage (cfg0.slots t 2)
abbrev hs0_2 (t : Fin cfg0.N) : (ms0_2 t).IsWhole := hstage0_2 ((cfg0.slots t 2).cast nbuf0_2)
/-- The running-minimum scratch: a whole scoped buffer of the kernel's own. -/
abbrev scr0 : Memref sig .tc .vmem S8x512 .f32 := Memref.whole cc0_scratch0

/-- The core's scoped buffers that this region neither stages through nor keeps its running minimum in (the other
    pallas_call's staging buffers and scratch), each at some contents. -/
abbrev others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- What the launch hands the region besides the windows: the scratch at some contents, those other buffers, and the
    generator register at some state. -/
theorem handed0 (c : Dev nD) :
    (Pipeline.ΦA spec0 c : sProp 𝕄) = iprop(iprop((∃ d, owns (c : Thread nD τ) scr0 fullShare d) ∗ others0 c) ∗ (∃ r, prngReg c r)) := by
  unfold Pipeline.ΦA
  rw [Pipeline.scopedRest_eq_of_list spec0 c [cc0_scratch0, cc1_stg0_0, cc1_stg0_1, cc1_stg1_0, cc1_stg1_1, cc1_stg2_0, cc1_stg2_1, cc1_scratch0] (by decide) (by decide)]
  simp only [scr0, owns_whole]; try rfl

/-! ## The running minimum, point by point -/

/-- What the scratch holds after the body at position `n` of the grid (row-major: query tile `n / 8`, key tile `n % 8`):
    at the first key tile of a row the tile's minimum taken from +infinity, afterwards the tile's minimum folded into
    what the position before left. -/
def acc0 (c : Dev nD) : (n : ℕ) → n < cfg0.N → Vec F S8x512 .f32
  | 0, hn => k0_pay2 (blk0 V c 0 ⟨0, hn⟩) (blk0 V c 1 ⟨0, hn⟩) k0_pay1
  | n + 1, hn =>
    if (n + 1) % 8 = 0 then k0_pay2 (blk0 V c 0 ⟨n + 1, hn⟩) (blk0 V c 1 ⟨n + 1, hn⟩) k0_pay1
    else k0_pay2 (blk0 V c 0 ⟨n + 1, hn⟩) (blk0 V c 1 ⟨n + 1, hn⟩) (acc0 c n (Nat.lt_of_succ_lt hn))

/-- At the first point of a grid row: the tile's minimum from +infinity. -/
theorem acc0_first (c : Dev nD) (t : Fin cfg0.N) (h : t.val % 8 = 0) :
    acc0 V c t.val t.isLt = k0_pay2 (blk0 V c 0 t) (blk0 V c 1 t) k0_pay1 := by
  obtain ⟨n, hn⟩ := t
  cases n with
  | zero => rfl
  | succ n => exact if_pos h

/-- At any other point: the tile's minimum folded into the point before's. -/
theorem acc0_next (c : Dev nD) (t : Fin cfg0.N) (h : ¬t.val % 8 = 0) :
    acc0 V c t.val t.isLt = k0_pay2 (blk0 V c 0 t) (blk0 V c 1 t) (acc0 V c (t.val - 1) (Nat.lt_of_le_of_lt (Nat.sub_le _ _) t.isLt)) := by
  obtain ⟨n, hn⟩ := t
  cases n with
  | zero => exact absurd (Nat.zero_mod _) h
  | succ n => exact if_neg h

/-- The region's invariant before position `n`: before the first point what the launch hands over; afterwards the
    scratch at the running minimum the point before left, the other scoped buffers and the generator register at
    anything. -/
def inv0 (c : Dev nD) : (n : ℕ) → n ≤ cfg0.N → sProp 𝕄
  | 0, _ => Pipeline.ΦA spec0 c
  | n + 1, hn => iprop(iprop(owns (c : Thread nD τ) scr0 fullShare (acc0 V c n hn) ∗ others0 c) ∗ (∃ r, prngReg c r))

theorem inv0_pos (c : Dev nD) (n : ℕ) (h : n ≤ cfg0.N) (hz : n ≠ 0) :
    inv0 V c n h = iprop(iprop(owns (c : Thread nD τ) scr0 fullShare (acc0 V c (n - 1) (by omega)) ∗ others0 c) ∗ (∃ r, prngReg c r)) := by
  cases n with
  | zero => exact absurd rfl hz
  | succ n => rfl

/-! ## The pipeline's proof data -/

/-- On core `c`: the arrays as the region finds them; after the body at point `t` the two input buffers at their blocks
    and the output buffer at the running minimum (it is consulted only at the last point of a grid row, where the body
    has just copied the running minimum there); the invariant above; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => acc0 V c t.val t.isLt
  Φ t := inv0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = acc0 V c t.val t.isLt := by dsimp only [dat0]
theorem before0_0 (c : Dev nD) (t : Fin cfg0.N) (d) : (dat0 V c).before 0 t d = blk0 V c 0 t :=
  found0_0 V (dat0 V c) (A_eq0 V c 0) (after0_0 V c) t d
theorem before0_1 (c : Dev nD) (t : Fin cfg0.N) (d) : (dat0 V c).before 1 t d = blk0 V c 1 t :=
  found0_1 V (dat0 V c) (A_eq0 V c 1) (after0_1 V c) t d
theorem inv0_at (c : Dev nD) (t : Fin cfg0.N) :
    (dat0 V c).Φ t.castSucc = inv0 V c t.val (Nat.le_of_lt t.isLt) := by
  dsimp only [dat0]; simp only [Fin.coe_castSucc]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the input buffers hold their blocks; the point is the first of its grid row, the last, or
    neither, and the matching run of the body applies; the invariant hands over the scratch — at anything at a row's
    first point, at the running minimum otherwise — and takes it back at this point's running minimum. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = inv0 V c (t.val + 1) t.isLt from rfl]
  rw [show inv0 V c (t.val + 1) t.isLt = iprop(iprop(owns (c : Thread nD τ) scr0 fullShare (acc0 V c t.val t.isLt) ∗ others0 c) ∗ (∃ r, prngReg c r)) from rfl]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  by_cases h0 : t.val % 8 = 0
  · have h1 : ¬t.val % 8 = 7 := by omega
    have hc0 : first0 (grid0.coords t) := (first0_iff t).mpr h0
    have hc1 : ¬last0 (grid0.coords t) := fun h => h1 ((last0_iff t).mp h)
    rw [Dat.leavesExact_idle (dat0 V c) 2 t (idle0_2 t hc1) (keep0_2 t hc1)]
    rw [acc0_first V c t h0]
    by_cases hz : t.val = 0
    · rw [inv0_at V c t, show inv0 V c t.val (Nat.le_of_lt t.isLt) = Pipeline.ΦA spec0 c from by
        have : ∀ (n : ℕ) (h : n ≤ cfg0.N), n = 0 → inv0 V c n h = Pipeline.ΦA spec0 c := fun n h e => by subst e; rfl
        exact this _ _ hz, handed0]
      iintro ⟨⟨⟨HS, HR⟩, Hg⟩, Ho, ⟨%d0, H0⟩, ⟨%d1, H1⟩, ⟨%d2, H2⟩⟩
      iapply (body0_first c Set.univ (grid0.coords t) _ _ _ _ _ _ _ (Memref.isWhole_whole _) hc0 hc1 (blk0 V c 0 t) (blk0 V c 1 t) _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2
    · rw [inv0_at V c t, inv0_pos V c _ _ hz]
      iintro ⟨⟨⟨HS, HR⟩, Hg⟩, Ho, ⟨%d0, H0⟩, ⟨%d1, H1⟩, ⟨%d2, H2⟩⟩
      iapply (body0_first c Set.univ (grid0.coords t) _ _ _ _ _ _ _ (Memref.isWhole_whole _) hc0 hc1 (blk0 V c 0 t) (blk0 V c 1 t) _ _)
      isplitl [H0]; · iexact H0
      isplitl [H1]; · iexact H1
      isplitl [H2]; · iexact H2
      isplitl [HS]; · iexists _; iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2
  · have hz : t.val ≠ 0 := fun e => h0 (by rw [e])
    have hc0 : ¬first0 (grid0.coords t) := fun h => h0 ((first0_iff t).mp h)
    rw [acc0_next V c t h0, inv0_at V c t, inv0_pos V c _ _ hz]
    by_cases h1 : t.val % 8 = 7
    · have hc1 : last0 (grid0.coords t) := (last0_iff t).mpr h1
      rw [show (dat0 V c).leavesExact 2 t = owns (c : Thread nD τ) (ms0_2 t) fullShare ((dat0 V c).after 2 t) from by
        unfold Dat.leavesExact; rw [live0_2 t hc1], after0_2, acc0_next V c t h0]
      iintro ⟨⟨⟨HS, HR⟩, Hg⟩, Ho, ⟨%d0, H0⟩, ⟨%d1, H1⟩, ⟨%d2, H2⟩⟩
      iapply (body0_last c Set.univ (grid0.coords t) _ _ _ _ _ _ _ (Memref.isWhole_whole _) hc0 hc1 (blk0 V c 0 t) (blk0 V c 1 t) _ _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · have hc1 : ¬last0 (grid0.coords t) := fun h => h1 ((last0_iff t).mp h)
      rw [Dat.leavesExact_idle (dat0 V c) 2 t (idle0_2 t hc1) (keep0_2 t hc1)]
      iintro ⟨⟨⟨HS, HR⟩, Hg⟩, Ho, ⟨%d0, H0⟩, ⟨%d1, H1⟩, ⟨%d2, H2⟩⟩
      iapply (body0_mid c Set.univ (grid0.coords t) _ _ _ _ _ _ _ (Memref.isWhole_whole _) hc0 hc1 (blk0 V c 0 t) (blk0 V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- After any point the invariant gives back what the launch handed over, the running minimum forgotten. -/
theorem inv0_out (c : Dev nD) (t : Fin (cfg0.N + 1)) (ht : t.val ≠ 0) : (dat0 V c).Φ t ⊢ Pipeline.ΦA spec0 c := by
  rw [show (dat0 V c).Φ t = inv0 V c t.val (Nat.le_of_lt_succ t.isLt) from rfl, inv0_pos V c _ _ ht, handed0]
  iintro ⟨⟨HS, HR⟩, Hg⟩
  isplitl [HS HR]
  · isplitl [HS]; · iexists _; iexact HS
    iexact HR
  iexact Hg

end Region

end Cert.Kernel.Rows

end
-- ==== Proof.K.Region1.lean ====
/-
  The second pallas_call of the program: a grid of 8 x 8 points, point (i, j) holding 512 query
  points (tile i of the first operand) against 512 key points (tile j of the second). The body keeps, in a scratch buffer
  carried along a grid row, the running minimum over the key tiles seen so far of each query point's distance to the
  key points: refilled with +infinity at the row's first point, folded at every point, copied to the output block at the
  row's last point. This module runs the body in its three cases, names what the scratch holds after every point of the
  grid, and proves the pipeline's obligation for the body at every point, for any float instance.
-/
import proofs.«130966_j6863357739536_1_alg».proof.Proof.Gen.Kernel.Launch
import proofs.«130966_j6863357739536_1_alg».proof.Proof.Gen.Kernel.Skeleton
import proofs.«130966_j6863357739536_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«130966_j6863357739536_1_alg».proof.Proof.LibWholeStore
import proofs.«130966_j6863357739536_1_alg».proof.Proof.LibWholeStoreLast

set_option maxRecDepth 16384

noncomputable section

namespace Cert.Kernel.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's first conditional: the point is the first of its row of the grid (key tile 0). -/
abbrev first1 (i : grid1.Coords) : Prop := (Scalar.cmpi .ne (Scalar.extui (Scalar.cmpi .eq (BitVec.ofNat 32 (i 1).val) 0#32)) 0#32) = 1#1
/-- The body's second conditional: the point is the last of its row of the grid (key tile 7). -/
abbrev last1 (i : grid1.Coords) : Prop := k1_cond2 i = 1#1

set_option maxHeartbeats 1000000 in
/-- At the first key tile the body refills the running minimum with +infinity, whatever it held, then folds this tile
    in: the scratch ends at the tile's minimum taken from +infinity; the blocks and the output buffer are untouched. -/
theorem body1_first (c : Dev nD) (E : Set ℕ) (i : grid1.Coords) (arg2 : Memref sig .tc .vmem S8x512x64 .bf16) (harg2 : arg2.IsWhole) (arg3 : Memref sig .tc .vmem S8x512x64 .bf16) (harg3 : arg3.IsWhole) (arg4 : Memref sig .tc .vmem S8x512 .f32) (harg4 : arg4.IsWhole) (arg5 : Memref sig .tc .vmem S8x512 .f32) (harg5 : arg5.IsWhole)
    (hc0 : first1 i) (hc1 : ¬last1 i) (x0 x1 : Vec F S8x512x64 .bf16) (xo : Vec F S8x512 .f32) (K : PUnit → sProp 𝕄) :
    iprop(owns (c : Thread nD τ) arg2 fullShare x0 ∗ owns (c : Thread nD τ) arg3 fullShare x1 ∗ owns (c : Thread nD τ) arg4 fullShare xo ∗ (∃ d, owns (c : Thread nD τ) arg5 fullShare d)
        ∗ (iprop(owns (c : Thread nD τ) arg2 fullShare x0 ∗ owns (c : Thread nD τ) arg3 fullShare x1 ∗ owns (c : Thread nD τ) arg4 fullShare xo ∗ owns (c : Thread nD τ) arg5 fullShare (k1_pay2 x0 x1 k1_pay1)) -∗ K ⟨⟩))
      ⊢ wp frame (wpE (defs₀ (F := F)) Variants.none c none) E (cc1__cdist_min_kernel i arg2 harg2 arg3 harg3 arg4 harg4 arg5 harg5) K := by
  simp only [cc1__cdist_min_kernel_eq_skeleton]; unfold cc1__cdist_min_kernel_skel
  unfold owns
  iintro ⟨⟨%f0, %hf0, H0⟩, ⟨%f1, %hf1, H1⟩, ⟨%fo, %hfo, HO⟩, ⟨%ds, %fs, -, HS⟩, Hk⟩
  obtain rfl := harg2.eq_unread hf0; obtain rfl := harg3.eq_unread hf1; obtain rfl := harg4.eq_unread hfo
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr; · ipureintro; exact harg4.read_unread _
    iexact HO
  iexists _; isplitr
  swap; · iexact HS
  ipureintro
  rw [WholeStore.read_writes_whole_last _ _ WholeStore.off2_zero]
  rw [WholeStore.readAt_whole _ _ WholeStore.off3_zero, WholeStore.readAt_whole _ _ WholeStore.off3_zero, harg2.read_unread, harg3.read_unread]
  sl_unfold_run_names
  rw [View.readCov_unit_zero _ WholeStore.off2_zero]

set_option maxHeartbeats 1000000 in
/-- At a middle key tile the body folds the tile into the running minimum the tile before left. -/
theorem body1_mid (c : Dev nD) (E : Set ℕ) (i : grid1.Coords) (arg2 : Memref sig .tc .vmem S8x512x64 .bf16) (harg2 : arg2.IsWhole) (arg3 : Memref sig .tc .vmem S8x512x64 .bf16) (harg3 : arg3.IsWhole) (arg4 : Memref sig .tc .vmem S8x512 .f32) (harg4 : arg4.IsWhole) (arg5 : Memref sig .tc .vmem S8x512 .f32) (harg5 : arg5.IsWhole)
    (hc0 : ¬first1 i) (hc1 : ¬last1 i) (x0 x1 : Vec F S8x512x64 .bf16) (xo xs : Vec F S8x512 .f32) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare xs
        ∗ (iprop(owns (c : Thread nD τ) arg2 fullShare x0 ∗ owns (c : Thread nD τ) arg3 fullShare x1 ∗ owns (c : Thread nD τ) arg4 fullShare xo ∗ owns (c : Thread nD τ) arg5 fullShare (k1_pay2 x0 x1 xs)) -∗ K ⟨⟩))
      ⊢ wp frame (wpE (defs₀ (F := F)) Variants.none c none) E (cc1__cdist_min_kernel i arg2 harg2 arg3 harg3 arg4 harg4 arg5 harg5) K := by
  simp only [cc1__cdist_min_kernel_eq_skeleton]; unfold cc1__cdist_min_kernel_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr; · ipureintro; exact harg4.read_unread _
    iexact HO
  iexists _; isplitr
  swap; · iexact HS
  ipureintro
  rw [WholeStore.read_writes_whole _ _ WholeStore.off2_zero]
  rw [WholeStore.readAt_whole _ _ WholeStore.off3_zero, WholeStore.readAt_whole _ _ WholeStore.off3_zero, WholeStore.readAt_whole _ _ WholeStore.off2_zero, harg2.read_unread, harg3.read_unread, harg5.read_unread]

set_option maxHeartbeats 1000000 in
/-- At the last key tile the body folds the tile in and copies the finished running minimum to the output buffer. -/
theorem body1_last (c : Dev nD) (E : Set ℕ) (i : grid1.Coords) (arg2 : Memref sig .tc .vmem S8x512x64 .bf16) (harg2 : arg2.IsWhole) (arg3 : Memref sig .tc .vmem S8x512x64 .bf16) (harg3 : arg3.IsWhole) (arg4 : Memref sig .tc .vmem S8x512 .f32) (harg4 : arg4.IsWhole) (arg5 : Memref sig .tc .vmem S8x512 .f32) (harg5 : arg5.IsWhole)
    (hc0 : ¬first1 i) (hc1 : last1 i) (x0 x1 : Vec F S8x512x64 .bf16) (xs : Vec F S8x512 .f32) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (k1_pay2 x0 x1 xs) ∗ owns (c : Thread nD τ) arg5 fullShare (k1_pay2 x0 x1 xs)) -∗ K ⟨⟩))
      ⊢ wp frame (wpE (defs₀ (F := F)) Variants.none c none) E (cc1__cdist_min_kernel i arg2 harg2 arg3 harg3 arg4 harg4 arg5 harg5) K := by
  simp only [cc1__cdist_min_kernel_eq_skeleton]; unfold cc1__cdist_min_kernel_skel
  unfold owns
  iintro ⟨⟨%f0, %hf0, H0⟩, ⟨%f1, %hf1, H1⟩, ⟨%dO, %fo, -, HO⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr
    swap; · iexact HO
    ipureintro
    rw [WholeStore.read_writes_whole _ _ WholeStore.off2_zero]
    sl_unfold_run_names
    rw [View.readCov_unit_zero _ WholeStore.off2_zero]
    rw [WholeStore.readAt_whole _ _ WholeStore.off3_zero, WholeStore.readAt_whole _ _ WholeStore.off3_zero, WholeStore.readAt_whole _ _ WholeStore.off2_zero, harg2.read_unread, harg3.read_unread, harg5.read_unread]
  iexists _; isplitr
  swap; · iexact HS
  ipureintro
  sl_unfold_run_names
  rw [WholeStore.read_writes_whole _ _ WholeStore.off2_zero]
  rw [WholeStore.readAt_whole _ _ WholeStore.off3_zero, WholeStore.readAt_whole _ _ WholeStore.off3_zero, WholeStore.readAt_whole _ _ WholeStore.off2_zero, harg2.read_unread, harg3.read_unread, harg5.read_unread]

/-! ## The windows' blocks, the schedule, the buffers -/

section Region

variable (V : (c : Dev nD) → (b : Ref sig .tc) → Buf (Elt F) ((c : Thread nD τ).loc b))

/-- Window `w`'s block at grid point `t`, read off its array as the region finds it: for the query window 512 rows of
    tile `t / 8`, for the key window 512 rows of tile `t % 8`. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's staging buffer holds its block at every point: it is fetched at the first point of each grid row
    and its block index does not move along the row. -/
theorem found1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The key window's staging buffer holds its block at every point (it is fetched at every point). -/
theorem found1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- Point `t` is the first of its grid row exactly when `t` is a multiple of 8 — decided over the 64 points. -/
theorem first1_iff : ∀ t : Fin cfg1.N, first1 (grid1.coords t) ↔ t.val % 8 = 0 :=
  (by decide +kernel : ∀ t : Fin grid1.N, first1 (grid1.coords t) ↔ t.val % 8 = 0)
/-- Point `t` is the last of its grid row exactly when `t` is 7 modulo 8. -/
theorem last1_iff : ∀ t : Fin cfg1.N, last1 (grid1.coords t) ↔ t.val % 8 = 7 :=
  (by decide +kernel : ∀ t : Fin grid1.N, last1 (grid1.coords t) ↔ t.val % 8 = 7)

/-- The input windows are never idle. -/
theorem live1_0 : ∀ t : Fin cfg1.N, cfg1.idle 0 (grid1.coords t) = false := by decide +kernel
theorem live1_1 : ∀ t : Fin cfg1.N, cfg1.idle 1 (grid1.coords t) = false := by decide +kernel
/-- Away from the last point of a grid row the output window is idle and is not written back. -/
theorem idle1_2 : ∀ t : Fin cfg1.N, ¬last1 (grid1.coords t) → cfg1.idle 2 (grid1.coords t) = true := by decide +kernel
theorem keep1_2 : ∀ t : Fin cfg1.N, ¬last1 (grid1.coords t) → (cfg1.win 2).flush t = false := by decide +kernel
/-- At the last point of a grid row it is live. -/
theorem live1_2 : ∀ t : Fin cfg1.N, last1 (grid1.coords t) → cfg1.idle 2 (grid1.coords t) = false := by decide +kernel

/-- Each window's current staging memref at point `t`, as the pipeline passes it to the body, and its wholeness. -/
abbrev ms1_0 (t : Fin cfg1.N) : Memref sig .tc .vmem S8x512x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x512x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x512 .f32 := win1_2.stage (cfg1.slots t 2)
abbrev hs1_2 (t : Fin cfg1.N) : (ms1_2 t).IsWhole := hstage1_2 ((cfg1.slots t 2).cast nbuf1_2)
/-- The running-minimum scratch: a whole scoped buffer of the kernel's own. -/
abbrev scr1 : Memref sig .tc .vmem S8x512 .f32 := Memref.whole cc1_scratch0

/-- The core's scoped buffers that this region neither stages through nor keeps its running minimum in (the other
    pallas_call's staging buffers and scratch), each at some contents. -/
abbrev others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- What the launch hands the region besides the windows: the scratch at some contents, those other buffers, and the
    generator register at some state. -/
theorem handed1 (c : Dev nD) :
    (Pipeline.ΦA spec1 c : sProp 𝕄) = iprop(iprop((∃ d, owns (c : Thread nD τ) scr1 fullShare d) ∗ others1 c) ∗ (∃ r, prngReg c r)) := by
  unfold Pipeline.ΦA
  rw [Pipeline.scopedRest_eq_of_list spec1 c [cc1_scratch0, cc0_stg0_0, cc0_stg0_1, cc0_stg1_0, cc0_stg1_1, cc0_stg2_0, cc0_stg2_1, cc0_scratch0] (by decide) (by decide)]
  simp only [scr1, owns_whole]; try rfl

/-! ## The running minimum, point by point -/

/-- What the scratch holds after the body at position `n` of the grid (row-major: query tile `n / 8`, key tile `n % 8`):
    at the first key tile of a row the tile's minimum taken from +infinity, afterwards the tile's minimum folded into
    what the position before left. -/
def acc1 (c : Dev nD) : (n : ℕ) → n < cfg1.N → Vec F S8x512 .f32
  | 0, hn => k1_pay2 (blk1 V c 0 ⟨0, hn⟩) (blk1 V c 1 ⟨0, hn⟩) k1_pay1
  | n + 1, hn =>
    if (n + 1) % 8 = 0 then k1_pay2 (blk1 V c 0 ⟨n + 1, hn⟩) (blk1 V c 1 ⟨n + 1, hn⟩) k1_pay1
    else k1_pay2 (blk1 V c 0 ⟨n + 1, hn⟩) (blk1 V c 1 ⟨n + 1, hn⟩) (acc1 c n (Nat.lt_of_succ_lt hn))

/-- At the first point of a grid row: the tile's minimum from +infinity. -/
theorem acc1_first (c : Dev nD) (t : Fin cfg1.N) (h : t.val % 8 = 0) :
    acc1 V c t.val t.isLt = k1_pay2 (blk1 V c 0 t) (blk1 V c 1 t) k1_pay1 := by
  obtain ⟨n, hn⟩ := t
  cases n with
  | zero => rfl
  | succ n => exact if_pos h

/-- At any other point: the tile's minimum folded into the point before's. -/
theorem acc1_next (c : Dev nD) (t : Fin cfg1.N) (h : ¬t.val % 8 = 0) :
    acc1 V c t.val t.isLt = k1_pay2 (blk1 V c 0 t) (blk1 V c 1 t) (acc1 V c (t.val - 1) (Nat.lt_of_le_of_lt (Nat.sub_le _ _) t.isLt)) := by
  obtain ⟨n, hn⟩ := t
  cases n with
  | zero => exact absurd (Nat.zero_mod _) h
  | succ n => exact if_neg h

/-- The region's invariant before position `n`: before the first point what the launch hands over; afterwards the
    scratch at the running minimum the point before left, the other scoped buffers and the generator register at
    anything. -/
def inv1 (c : Dev nD) : (n : ℕ) → n ≤ cfg1.N → sProp 𝕄
  | 0, _ => Pipeline.ΦA spec1 c
  | n + 1, hn => iprop(iprop(owns (c : Thread nD τ) scr1 fullShare (acc1 V c n hn) ∗ others1 c) ∗ (∃ r, prngReg c r))

theorem inv1_pos (c : Dev nD) (n : ℕ) (h : n ≤ cfg1.N) (hz : n ≠ 0) :
    inv1 V c n h = iprop(iprop(owns (c : Thread nD τ) scr1 fullShare (acc1 V c (n - 1) (by omega)) ∗ others1 c) ∗ (∃ r, prngReg c r)) := by
  cases n with
  | zero => exact absurd rfl hz
  | succ n => rfl

/-! ## The pipeline's proof data -/

/-- On core `c`: the arrays as the region finds them; after the body at point `t` the two input buffers at their blocks
    and the output buffer at the running minimum (it is consulted only at the last point of a grid row, where the body
    has just copied the running minimum there); the invariant above; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => acc1 V c t.val t.isLt
  Φ t := inv1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = acc1 V c t.val t.isLt := by dsimp only [dat1]
theorem before1_0 (c : Dev nD) (t : Fin cfg1.N) (d) : (dat1 V c).before 0 t d = blk1 V c 0 t :=
  found1_0 V (dat1 V c) (A_eq1 V c 0) (after1_0 V c) t d
theorem before1_1 (c : Dev nD) (t : Fin cfg1.N) (d) : (dat1 V c).before 1 t d = blk1 V c 1 t :=
  found1_1 V (dat1 V c) (A_eq1 V c 1) (after1_1 V c) t d
theorem inv1_at (c : Dev nD) (t : Fin cfg1.N) :
    (dat1 V c).Φ t.castSucc = inv1 V c t.val (Nat.le_of_lt t.isLt) := by
  dsimp only [dat1]; simp only [Fin.coe_castSucc]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the input buffers hold their blocks; the point is the first of its grid row, the last, or
    neither, and the matching run of the body applies; the invariant hands over the scratch — at anything at a row's
    first point, at the running minimum otherwise — and takes it back at this point's running minimum. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = inv1 V c (t.val + 1) t.isLt from rfl]
  rw [show inv1 V c (t.val + 1) t.isLt = iprop(iprop(owns (c : Thread nD τ) scr1 fullShare (acc1 V c t.val t.isLt) ∗ others1 c) ∗ (∃ r, prngReg c r)) from rfl]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  by_cases h0 : t.val % 8 = 0
  · have h1 : ¬t.val % 8 = 7 := by omega
    have hc0 : first1 (grid1.coords t) := (first1_iff t).mpr h0
    have hc1 : ¬last1 (grid1.coords t) := fun h => h1 ((last1_iff t).mp h)
    rw [Dat.leavesExact_idle (dat1 V c) 2 t (idle1_2 t hc1) (keep1_2 t hc1)]
    rw [acc1_first V c t h0]
    by_cases hz : t.val = 0
    · rw [inv1_at V c t, show inv1 V c t.val (Nat.le_of_lt t.isLt) = Pipeline.ΦA spec1 c from by
        have : ∀ (n : ℕ) (h : n ≤ cfg1.N), n = 0 → inv1 V c n h = Pipeline.ΦA spec1 c := fun n h e => by subst e; rfl
        exact this _ _ hz, handed1]
      iintro ⟨⟨⟨HS, HR⟩, Hg⟩, Ho, ⟨%d0, H0⟩, ⟨%d1, H1⟩, ⟨%d2, H2⟩⟩
      iapply (body1_first c Set.univ (grid1.coords t) _ _ _ _ _ _ _ (Memref.isWhole_whole _) hc0 hc1 (blk1 V c 0 t) (blk1 V c 1 t) _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2
    · rw [inv1_at V c t, inv1_pos V c _ _ hz]
      iintro ⟨⟨⟨HS, HR⟩, Hg⟩, Ho, ⟨%d0, H0⟩, ⟨%d1, H1⟩, ⟨%d2, H2⟩⟩
      iapply (body1_first c Set.univ (grid1.coords t) _ _ _ _ _ _ _ (Memref.isWhole_whole _) hc0 hc1 (blk1 V c 0 t) (blk1 V c 1 t) _ _)
      isplitl [H0]; · iexact H0
      isplitl [H1]; · iexact H1
      isplitl [H2]; · iexact H2
      isplitl [HS]; · iexists _; iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2
  · have hz : t.val ≠ 0 := fun e => h0 (by rw [e])
    have hc0 : ¬first1 (grid1.coords t) := fun h => h0 ((first1_iff t).mp h)
    rw [acc1_next V c t h0, inv1_at V c t, inv1_pos V c _ _ hz]
    by_cases h1 : t.val % 8 = 7
    · have hc1 : last1 (grid1.coords t) := (last1_iff t).mpr h1
      rw [show (dat1 V c).leavesExact 2 t = owns (c : Thread nD τ) (ms1_2 t) fullShare ((dat1 V c).after 2 t) from by
        unfold Dat.leavesExact; rw [live1_2 t hc1], after1_2, acc1_next V c t h0]
      iintro ⟨⟨⟨HS, HR⟩, Hg⟩, Ho, ⟨%d0, H0⟩, ⟨%d1, H1⟩, ⟨%d2, H2⟩⟩
      iapply (body1_last c Set.univ (grid1.coords t) _ _ _ _ _ _ _ (Memref.isWhole_whole _) hc0 hc1 (blk1 V c 0 t) (blk1 V c 1 t) _ _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · have hc1 : ¬last1 (grid1.coords t) := fun h => h1 ((last1_iff t).mp h)
      rw [Dat.leavesExact_idle (dat1 V c) 2 t (idle1_2 t hc1) (keep1_2 t hc1)]
      iintro ⟨⟨⟨HS, HR⟩, Hg⟩, Ho, ⟨%d0, H0⟩, ⟨%d1, H1⟩, ⟨%d2, H2⟩⟩
      iapply (body1_mid c Set.univ (grid1.coords t) _ _ _ _ _ _ _ (Memref.isWhole_whole _) hc0 hc1 (blk1 V c 0 t) (blk1 V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- After any point the invariant gives back what the launch handed over, the running minimum forgotten. -/
theorem inv1_out (c : Dev nD) (t : Fin (cfg1.N + 1)) (ht : t.val ≠ 0) : (dat1 V c).Φ t ⊢ Pipeline.ΦA spec1 c := by
  rw [show (dat1 V c).Φ t = inv1 V c t.val (Nat.le_of_lt_succ t.isLt) from rfl, inv1_pos V c _ _ ht, handed1]
  iintro ⟨⟨HS, HR⟩, Hg⟩
  isplitl [HS HR]
  · isplitl [HS]; · iexists _; iexact HS
    iexact HR
  iexact Hg

end Region

end Cert.Kernel.Rows

end
-- ==== Proof.K.Run.lean ====
/-
  The whole program as a chain of four stretches — the two conversions of the arguments, the first pallas_call, the
  second, and the closing reductions — run from any memory: the contents of every buffer at each boundary, each
  pallas_call entered from the boundary before it and left at the one after it (its output array at what the pipeline's
  write-backs leave, everything else untouched), and the run to the end with every unscoped buffer at the last boundary's
  contents. The argument arrays come out as launched; the result is the closing reductions of the two outputs.
-/
import proofs.«130966_j6863357739536_1_alg».proof.Proof.K.Region0
import proofs.«130966_j6863357739536_1_alg».proof.Proof.K.Region1
import proofs.«130966_j6863357739536_1_alg».proof.Proof.Gen.Kernel.Regions

set_option maxRecDepth 16384

noncomputable section

namespace Cert.Kernel.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev B0 : Dev nD → Valuation τ sig (Elt F) := fun c b => m (c, b)
/-- After the two conversions: where the first pallas_call is entered. -/
abbrev B1 : Dev nD → Valuation τ sig (Elt F) := fun c => StableHlo.after hostOps0 (B0 m c)
abbrev E1 : (c : Dev nD) → (b : Ref sig .tc) → Buf (Elt F) ((c : Thread nD τ).loc b) := fun c b => B1 m c b
/-- After the first pallas_call: its arrays at what the pipeline leaves, every other buffer as entered. -/
def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_other (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev E2 : (c : Dev nD) → (b : Ref sig .tc) → Buf (Elt F) ((c : Thread nD τ).loc b) := fun c b => B2 m c b
theorem left0 (c : Dev nD) (w : Fin cfg0.W) : (dat0 (E1 m) c).arrAt w cfg0.N = E2 m c (Pipeline.arrRef spec0 w) :=
  (B2_arr m c w).symm
theorem kept0 (c : Dev nD) : ∀ b, b ∉ Finset.univ.image (Pipeline.arrRef spec0) → E2 m c b = E1 m c b :=
  fun b hb => B2_other m c b fun w e => hb (Finset.mem_image.mpr ⟨w, Finset.mem_univ _, e⟩)
/-- After the second pallas_call. -/
def B3 (c : Dev nD) : Valuation τ sig (Elt F) :=
  Pipeline.withArrays spec1 c (B2 m c) fun w => (dat1 (E2 m) c).arrAt w cfg1.N
theorem B3_arr (c : Dev nD) (w : Fin cfg1.W) :
    B3 m c (Proc.devRef .tc (Pipeline.arrRef spec1 w)) = (dat1 (E2 m) c).arrAt w cfg1.N := by
  unfold B3; exact Pipeline.withArrays_arr spec1 launch1.win.arr_inj c _ _ w
theorem B3_other (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev E3 : (c : Dev nD) → (b : Ref sig .tc) → Buf (Elt F) ((c : Thread nD τ).loc b) := fun c b => B3 m c b
theorem left1 (c : Dev nD) (w : Fin cfg1.W) : (dat1 (E2 m) c).arrAt w cfg1.N = E3 m c (Pipeline.arrRef spec1 w) :=
  (B3_arr m c w).symm
theorem kept1 (c : Dev nD) : ∀ b, b ∉ Finset.univ.image (Pipeline.arrRef spec1) → E3 m c b = E2 m c b :=
  fun b hb => B3_other m c b fun w e => hb (Finset.mem_image.mpr ⟨w, Finset.mem_univ _, e⟩)
/-- After the closing reductions: the end. -/
abbrev B4 : Dev nD → Valuation τ sig (Elt F) := fun c => StableHlo.after hostOps2 (B3 m c)

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
abbrev 𝒱₀ : Variants := Variants.none
abbrev L : GSem nD τ sig → Finset Unit := fun _ => ∅
abbrev lv : GSem nD τ sig → Unit → ℕ := fun _ _ => 0
/-- What rides beside the buffers through every stretch: the generator register at some state, and the core owing
    nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B4 m c) ∗ ∃ r, prngReg c r)

/-! ## The two pallas_calls as segments -/

set_option backward.isDefEq.respectTransparency.types false in
/-- The first pallas_call: entered with every unscoped buffer at `B1`, left with them at `B2`. Its arrays are split out
    of the unscoped buffers and put back at their exit contents; the generator register goes into the region's invariant
    and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (inv0_out (E1 m) c (Fin.last _) (by rw [Fin.val_last]; have : cfg0.N = 64 := N_0; omega)).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call: entered at `B2`, left at `B3`, in the same way. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (B2 m c) ∗ R c)
  post c := iprop(StableHlo.held (c : Thread nD τ) (Pipeline.ucRefs τ sig) (B3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (inv1_out (E2 m) c (Fin.last _) (by rw [Fin.val_last]; have : cfg1.N = 64 := N_1; omega)).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (left1 m c) (kept1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh (B0 m)),
    .region (reg0 m),
    .region (reg1 m),
    .host (hseg hostOps2 hostOps2_sub hostOps2_fresh (B3 m)) ]
theorem main_run (c : Dev nD) : main (F := F) c = Pipeline.Seg.run (segs m) := (main_chain c).trans (by chain_rfl)

set_option backward.isDefEq.respectTransparency.types false in
/-- From any memory with zero counters every weakly fair execution of the program terminates, nothing faulting, and
    every final memory holds each unscoped buffer at the last boundary's contents `B4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun c => by
      show (iprop(StableHlo.held (c : Thread nD τ) (Pipeline.ucRefs τ sig) (B4 m c) ∗ R c) : sProp 𝕄)
        ⊢ iprop(Tₙ m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m c b)
    (hfin := fun c s' => by
      iintro ⟨⟨Hh, -⟩, HSI⟩
      unfold StableHlo.held
      imodintro
      iapply (pointsTo_read_all (Pipeline.ucRefs τ sig) (fun b => (((c : Thread nD τ)).1, b)) (B4 m c) s')
      isplitl [Hh] <;> iassumption)
    (hQ := fun s h c => h c)

/-! ## The arguments end as launched -/

theorem B4_arg0 (c : Dev nD) : B4 m c (Proc.devRef .tc main_arg0) = m ((c : Thread nD τ).loc main_arg0) :=
  calc B4 m c (Proc.devRef .tc main_arg0)
    _ = B3 m c (Proc.devRef .tc main_arg0) := StableHlo.after_of_writes_sub hostOps2 _ hostOps2_writes (by decide)
    _ = B2 m c (Proc.devRef .tc main_arg0) := B3_other m c main_arg0 (by decide)
    _ = B1 m c (Proc.devRef .tc main_arg0) := B2_other m c main_arg0 (by decide)
    _ = B0 m c (Proc.devRef .tc main_arg0) := StableHlo.after_of_writes_sub hostOps0 _ hostOps0_writes (by decide)
    _ = m ((c : Thread nD τ).loc main_arg0) := rfl
theorem B4_arg1 (c : Dev nD) : B4 m c (Proc.devRef .tc main_arg1) = m ((c : Thread nD τ).loc main_arg1) :=
  calc B4 m c (Proc.devRef .tc main_arg1)
    _ = B3 m c (Proc.devRef .tc main_arg1) := StableHlo.after_of_writes_sub hostOps2 _ hostOps2_writes (by decide)
    _ = B2 m c (Proc.devRef .tc main_arg1) := B3_other m c main_arg1 (by decide)
    _ = B1 m c (Proc.devRef .tc main_arg1) := B2_other m c main_arg1 (by decide)
    _ = B0 m c (Proc.devRef .tc main_arg1) := StableHlo.after_of_writes_sub hostOps0 _ hostOps0_writes (by decide)
    _ = m ((c : Thread nD τ).loc main_arg1) := rfl

/-- The frame: the program runs to the end, faults nowhere, and leaves its argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (B4_arg0 m c),
     (h c _ (mem_uc main_arg1 (by decide))).trans (B4_arg1 m c)⟩) (run_all m ρ)

end Cert.Kernel.Rows

end
-- ==== Proof.KI.Region0.lean ====
/-
  The first pallas_call of the program: a grid of 8 x 8 points, point (i, j) holding 512 query
  points (tile i of the first operand) against 512 key points (tile j of the second). The body keeps, in a scratch buffer
  carried along a grid row, the running minimum over the key tiles seen so far of each query point's distance to the
  key points: refilled with +infinity at the row's first point, folded at every point, copied to the output block at the
  row's last point. This module runs the body in its three cases, names what the scratch holds after every point of the
  grid, and proves the pipeline's obligation for the body at every point, for any float instance.
-/
import proofs.«130966_j6863357739536_1_alg».proof.Proof.Gen.KernelIdeal.Launch
import proofs.«130966_j6863357739536_1_alg».proof.Proof.Gen.KernelIdeal.Skeleton
import proofs.«130966_j6863357739536_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«130966_j6863357739536_1_alg».proof.Proof.LibWholeStore
import proofs.«130966_j6863357739536_1_alg».proof.Proof.LibWholeStoreLast

set_option maxRecDepth 16384

noncomputable section

namespace Cert.KernelIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's first conditional: the point is the first of its row of the grid (key tile 0). -/
abbrev first0 (i : grid0.Coords) : Prop := (Scalar.cmpi .ne (Scalar.extui (Scalar.cmpi .eq (BitVec.ofNat 32 (i 1).val) 0#32)) 0#32) = 1#1
/-- The body's second conditional: the point is the last of its row of the grid (key tile 7). -/
abbrev last0 (i : grid0.Coords) : Prop := k0_cond2 i = 1#1

set_option maxHeartbeats 1000000 in
/-- At the first key tile the body refills the running minimum with +infinity, whatever it held, then folds this tile
    in: the scratch ends at the tile's minimum taken from +infinity; the blocks and the output buffer are untouched. -/
theorem body0_first (c : Dev nD) (E : Set ℕ) (i : grid0.Coords) (arg2 : Memref sig .tc .vmem S8x512x64 .bf16) (harg2 : arg2.IsWhole) (arg3 : Memref sig .tc .vmem S8x512x64 .bf16) (harg3 : arg3.IsWhole) (arg4 : Memref sig .tc .vmem S8x512 .f32) (harg4 : arg4.IsWhole) (arg5 : Memref sig .tc .vmem S8x512 .f32) (harg5 : arg5.IsWhole)
    (hc0 : first0 i) (hc1 : ¬last0 i) (x0 x1 : Vec F S8x512x64 .bf16) (xo : Vec F S8x512 .f32) (K : PUnit → sProp 𝕄) :
    iprop(owns (c : Thread nD τ) arg2 fullShare x0 ∗ owns (c : Thread nD τ) arg3 fullShare x1 ∗ owns (c : Thread nD τ) arg4 fullShare xo ∗ (∃ d, owns (c : Thread nD τ) arg5 fullShare d)
        ∗ (iprop(owns (c : Thread nD τ) arg2 fullShare x0 ∗ owns (c : Thread nD τ) arg3 fullShare x1 ∗ owns (c : Thread nD τ) arg4 fullShare xo ∗ owns (c : Thread nD τ) arg5 fullShare (k0_pay2 x0 x1 k0_pay1)) -∗ K ⟨⟩))
      ⊢ wp frame (wpE (defs₀ (F := F)) Variants.none c none) E (cc0__cdist_min_kernel i arg2 harg2 arg3 harg3 arg4 harg4 arg5 harg5) K := by
  simp only [cc0__cdist_min_kernel_eq_skeleton]; unfold cc0__cdist_min_kernel_skel
  unfold owns
  iintro ⟨⟨%f0, %hf0, H0⟩, ⟨%f1, %hf1, H1⟩, ⟨%fo, %hfo, HO⟩, ⟨%ds, %fs, -, HS⟩, Hk⟩
  obtain rfl := harg2.eq_unread hf0; obtain rfl := harg3.eq_unread hf1; obtain rfl := harg4.eq_unread hfo
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr; · ipureintro; exact harg4.read_unread _
    iexact HO
  iexists _; isplitr
  swap; · iexact HS
  ipureintro
  rw [WholeStore.read_writes_whole_last _ _ WholeStore.off2_zero]
  rw [WholeStore.readAt_whole _ _ WholeStore.off3_zero, WholeStore.readAt_whole _ _ WholeStore.off3_zero, harg2.read_unread, harg3.read_unread]
  sl_unfold_run_names
  rw [View.readCov_unit_zero _ WholeStore.off2_zero]

set_option maxHeartbeats 1000000 in
/-- At a middle key tile the body folds the tile into the running minimum the tile before left. -/
theorem body0_mid (c : Dev nD) (E : Set ℕ) (i : grid0.Coords) (arg2 : Memref sig .tc .vmem S8x512x64 .bf16) (harg2 : arg2.IsWhole) (arg3 : Memref sig .tc .vmem S8x512x64 .bf16) (harg3 : arg3.IsWhole) (arg4 : Memref sig .tc .vmem S8x512 .f32) (harg4 : arg4.IsWhole) (arg5 : Memref sig .tc .vmem S8x512 .f32) (harg5 : arg5.IsWhole)
    (hc0 : ¬first0 i) (hc1 : ¬last0 i) (x0 x1 : Vec F S8x512x64 .bf16) (xo xs : Vec F S8x512 .f32) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare xs
        ∗ (iprop(owns (c : Thread nD τ) arg2 fullShare x0 ∗ owns (c : Thread nD τ) arg3 fullShare x1 ∗ owns (c : Thread nD τ) arg4 fullShare xo ∗ owns (c : Thread nD τ) arg5 fullShare (k0_pay2 x0 x1 xs)) -∗ K ⟨⟩))
      ⊢ wp frame (wpE (defs₀ (F := F)) Variants.none c none) E (cc0__cdist_min_kernel i arg2 harg2 arg3 harg3 arg4 harg4 arg5 harg5) K := by
  simp only [cc0__cdist_min_kernel_eq_skeleton]; unfold cc0__cdist_min_kernel_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr; · ipureintro; exact harg4.read_unread _
    iexact HO
  iexists _; isplitr
  swap; · iexact HS
  ipureintro
  rw [WholeStore.read_writes_whole _ _ WholeStore.off2_zero]
  rw [WholeStore.readAt_whole _ _ WholeStore.off3_zero, WholeStore.readAt_whole _ _ WholeStore.off3_zero, WholeStore.readAt_whole _ _ WholeStore.off2_zero, harg2.read_unread, harg3.read_unread, harg5.read_unread]

set_option maxHeartbeats 1000000 in
/-- At the last key tile the body folds the tile in and copies the finished running minimum to the output buffer. -/
theorem body0_last (c : Dev nD) (E : Set ℕ) (i : grid0.Coords) (arg2 : Memref sig .tc .vmem S8x512x64 .bf16) (harg2 : arg2.IsWhole) (arg3 : Memref sig .tc .vmem S8x512x64 .bf16) (harg3 : arg3.IsWhole) (arg4 : Memref sig .tc .vmem S8x512 .f32) (harg4 : arg4.IsWhole) (arg5 : Memref sig .tc .vmem S8x512 .f32) (harg5 : arg5.IsWhole)
    (hc0 : ¬first0 i) (hc1 : last0 i) (x0 x1 : Vec F S8x512x64 .bf16) (xs : Vec F S8x512 .f32) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (k0_pay2 x0 x1 xs) ∗ owns (c : Thread nD τ) arg5 fullShare (k0_pay2 x0 x1 xs)) -∗ K ⟨⟩))
      ⊢ wp frame (wpE (defs₀ (F := F)) Variants.none c none) E (cc0__cdist_min_kernel i arg2 harg2 arg3 harg3 arg4 harg4 arg5 harg5) K := by
  simp only [cc0__cdist_min_kernel_eq_skeleton]; unfold cc0__cdist_min_kernel_skel
  unfold owns
  iintro ⟨⟨%f0, %hf0, H0⟩, ⟨%f1, %hf1, H1⟩, ⟨%dO, %fo, -, HO⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr
    swap; · iexact HO
    ipureintro
    rw [WholeStore.read_writes_whole _ _ WholeStore.off2_zero]
    sl_unfold_run_names
    rw [View.readCov_unit_zero _ WholeStore.off2_zero]
    rw [WholeStore.readAt_whole _ _ WholeStore.off3_zero, WholeStore.readAt_whole _ _ WholeStore.off3_zero, WholeStore.readAt_whole _ _ WholeStore.off2_zero, harg2.read_unread, harg3.read_unread, harg5.read_unread]
  iexists _; isplitr
  swap; · iexact HS
  ipureintro
  sl_unfold_run_names
  rw [WholeStore.read_writes_whole _ _ WholeStore.off2_zero]
  rw [WholeStore.readAt_whole _ _ WholeStore.off3_zero, WholeStore.readAt_whole _ _ WholeStore.off3_zero, WholeStore.readAt_whole _ _ WholeStore.off2_zero, harg2.read_unread, harg3.read_unread, harg5.read_unread]

/-! ## The windows' blocks, the schedule, the buffers -/

section Region

variable (V : (c : Dev nD) → (b : Ref sig .tc) → Buf (Elt F) ((c : Thread nD τ).loc b))

/-- Window `w`'s block at grid point `t`, read off its array as the region finds it: for the query window 512 rows of
    tile `t / 8`, for the key window 512 rows of tile `t % 8`. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The query window's staging buffer holds its block at every point: it is fetched at the first point of each grid row
    and its block index does not move along the row. -/
theorem found0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The key window's staging buffer holds its block at every point (it is fetched at every point). -/
theorem found0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- Point `t` is the first of its grid row exactly when `t` is a multiple of 8 — decided over the 64 points. -/
theorem first0_iff : ∀ t : Fin cfg0.N, first0 (grid0.coords t) ↔ t.val % 8 = 0 :=
  (by decide +kernel : ∀ t : Fin grid0.N, first0 (grid0.coords t) ↔ t.val % 8 = 0)
/-- Point `t` is the last of its grid row exactly when `t` is 7 modulo 8. -/
theorem last0_iff : ∀ t : Fin cfg0.N, last0 (grid0.coords t) ↔ t.val % 8 = 7 :=
  (by decide +kernel : ∀ t : Fin grid0.N, last0 (grid0.coords t) ↔ t.val % 8 = 7)

/-- The input windows are never idle. -/
theorem live0_0 : ∀ t : Fin cfg0.N, cfg0.idle 0 (grid0.coords t) = false := by decide +kernel
theorem live0_1 : ∀ t : Fin cfg0.N, cfg0.idle 1 (grid0.coords t) = false := by decide +kernel
/-- Away from the last point of a grid row the output window is idle and is not written back. -/
theorem idle0_2 : ∀ t : Fin cfg0.N, ¬last0 (grid0.coords t) → cfg0.idle 2 (grid0.coords t) = true := by decide +kernel
theorem keep0_2 : ∀ t : Fin cfg0.N, ¬last0 (grid0.coords t) → (cfg0.win 2).flush t = false := by decide +kernel
/-- At the last point of a grid row it is live. -/
theorem live0_2 : ∀ t : Fin cfg0.N, last0 (grid0.coords t) → cfg0.idle 2 (grid0.coords t) = false := by decide +kernel

/-- Each window's current staging memref at point `t`, as the pipeline passes it to the body, and its wholeness. -/
abbrev ms0_0 (t : Fin cfg0.N) : Memref sig .tc .vmem S8x512x64 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x512x64 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x512 .f32 := win0_2.stage (cfg0.slots t 2)
abbrev hs0_2 (t : Fin cfg0.N) : (ms0_2 t).IsWhole := hstage0_2 ((cfg0.slots t 2).cast nbuf0_2)
/-- The running-minimum scratch: a whole scoped buffer of the kernel's own. -/
abbrev scr0 : Memref sig .tc .vmem S8x512 .f32 := Memref.whole cc0_scratch0

/-- The core's scoped buffers that this region neither stages through nor keeps its running minimum in (the other
    pallas_call's staging buffers and scratch), each at some contents. -/
abbrev others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- What the launch hands the region besides the windows: the scratch at some contents, those other buffers, and the
    generator register at some state. -/
theorem handed0 (c : Dev nD) :
    (Pipeline.ΦA spec0 c : sProp 𝕄) = iprop(iprop((∃ d, owns (c : Thread nD τ) scr0 fullShare d) ∗ others0 c) ∗ (∃ r, prngReg c r)) := by
  unfold Pipeline.ΦA
  rw [Pipeline.scopedRest_eq_of_list spec0 c [cc0_scratch0, cc1_stg0_0, cc1_stg0_1, cc1_stg1_0, cc1_stg1_1, cc1_stg2_0, cc1_stg2_1, cc1_scratch0] (by decide) (by decide)]
  simp only [scr0, owns_whole]; try rfl

/-! ## The running minimum, point by point -/

/-- What the scratch holds after the body at position `n` of the grid (row-major: query tile `n / 8`, key tile `n % 8`):
    at the first key tile of a row the tile's minimum taken from +infinity, afterwards the tile's minimum folded into
    what the position before left. -/
def acc0 (c : Dev nD) : (n : ℕ) → n < cfg0.N → Vec F S8x512 .f32
  | 0, hn => k0_pay2 (blk0 V c 0 ⟨0, hn⟩) (blk0 V c 1 ⟨0, hn⟩) k0_pay1
  | n + 1, hn =>
    if (n + 1) % 8 = 0 then k0_pay2 (blk0 V c 0 ⟨n + 1, hn⟩) (blk0 V c 1 ⟨n + 1, hn⟩) k0_pay1
    else k0_pay2 (blk0 V c 0 ⟨n + 1, hn⟩) (blk0 V c 1 ⟨n + 1, hn⟩) (acc0 c n (Nat.lt_of_succ_lt hn))

/-- At the first point of a grid row: the tile's minimum from +infinity. -/
theorem acc0_first (c : Dev nD) (t : Fin cfg0.N) (h : t.val % 8 = 0) :
    acc0 V c t.val t.isLt = k0_pay2 (blk0 V c 0 t) (blk0 V c 1 t) k0_pay1 := by
  obtain ⟨n, hn⟩ := t
  cases n with
  | zero => rfl
  | succ n => exact if_pos h

/-- At any other point: the tile's minimum folded into the point before's. -/
theorem acc0_next (c : Dev nD) (t : Fin cfg0.N) (h : ¬t.val % 8 = 0) :
    acc0 V c t.val t.isLt = k0_pay2 (blk0 V c 0 t) (blk0 V c 1 t) (acc0 V c (t.val - 1) (Nat.lt_of_le_of_lt (Nat.sub_le _ _) t.isLt)) := by
  obtain ⟨n, hn⟩ := t
  cases n with
  | zero => exact absurd (Nat.zero_mod _) h
  | succ n => exact if_neg h

/-- The region's invariant before position `n`: before the first point what the launch hands over; afterwards the
    scratch at the running minimum the point before left, the other scoped buffers and the generator register at
    anything. -/
def inv0 (c : Dev nD) : (n : ℕ) → n ≤ cfg0.N → sProp 𝕄
  | 0, _ => Pipeline.ΦA spec0 c
  | n + 1, hn => iprop(iprop(owns (c : Thread nD τ) scr0 fullShare (acc0 V c n hn) ∗ others0 c) ∗ (∃ r, prngReg c r))

theorem inv0_pos (c : Dev nD) (n : ℕ) (h : n ≤ cfg0.N) (hz : n ≠ 0) :
    inv0 V c n h = iprop(iprop(owns (c : Thread nD τ) scr0 fullShare (acc0 V c (n - 1) (by omega)) ∗ others0 c) ∗ (∃ r, prngReg c r)) := by
  cases n with
  | zero => exact absurd rfl hz
  | succ n => rfl

/-! ## The pipeline's proof data -/

/-- On core `c`: the arrays as the region finds them; after the body at point `t` the two input buffers at their blocks
    and the output buffer at the running minimum (it is consulted only at the last point of a grid row, where the body
    has just copied the running minimum there); the invariant above; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => acc0 V c t.val t.isLt
  Φ t := inv0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = acc0 V c t.val t.isLt := by dsimp only [dat0]
theorem before0_0 (c : Dev nD) (t : Fin cfg0.N) (d) : (dat0 V c).before 0 t d = blk0 V c 0 t :=
  found0_0 V (dat0 V c) (A_eq0 V c 0) (after0_0 V c) t d
theorem before0_1 (c : Dev nD) (t : Fin cfg0.N) (d) : (dat0 V c).before 1 t d = blk0 V c 1 t :=
  found0_1 V (dat0 V c) (A_eq0 V c 1) (after0_1 V c) t d
theorem inv0_at (c : Dev nD) (t : Fin cfg0.N) :
    (dat0 V c).Φ t.castSucc = inv0 V c t.val (Nat.le_of_lt t.isLt) := by
  dsimp only [dat0]; simp only [Fin.coe_castSucc]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the input buffers hold their blocks; the point is the first of its grid row, the last, or
    neither, and the matching run of the body applies; the invariant hands over the scratch — at anything at a row's
    first point, at the running minimum otherwise — and takes it back at this point's running minimum. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = inv0 V c (t.val + 1) t.isLt from rfl]
  rw [show inv0 V c (t.val + 1) t.isLt = iprop(iprop(owns (c : Thread nD τ) scr0 fullShare (acc0 V c t.val t.isLt) ∗ others0 c) ∗ (∃ r, prngReg c r)) from rfl]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  by_cases h0 : t.val % 8 = 0
  · have h1 : ¬t.val % 8 = 7 := by omega
    have hc0 : first0 (grid0.coords t) := (first0_iff t).mpr h0
    have hc1 : ¬last0 (grid0.coords t) := fun h => h1 ((last0_iff t).mp h)
    rw [Dat.leavesExact_idle (dat0 V c) 2 t (idle0_2 t hc1) (keep0_2 t hc1)]
    rw [acc0_first V c t h0]
    by_cases hz : t.val = 0
    · rw [inv0_at V c t, show inv0 V c t.val (Nat.le_of_lt t.isLt) = Pipeline.ΦA spec0 c from by
        have : ∀ (n : ℕ) (h : n ≤ cfg0.N), n = 0 → inv0 V c n h = Pipeline.ΦA spec0 c := fun n h e => by subst e; rfl
        exact this _ _ hz, handed0]
      iintro ⟨⟨⟨HS, HR⟩, Hg⟩, Ho, ⟨%d0, H0⟩, ⟨%d1, H1⟩, ⟨%d2, H2⟩⟩
      iapply (body0_first c Set.univ (grid0.coords t) _ _ _ _ _ _ _ (Memref.isWhole_whole _) hc0 hc1 (blk0 V c 0 t) (blk0 V c 1 t) _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2
    · rw [inv0_at V c t, inv0_pos V c _ _ hz]
      iintro ⟨⟨⟨HS, HR⟩, Hg⟩, Ho, ⟨%d0, H0⟩, ⟨%d1, H1⟩, ⟨%d2, H2⟩⟩
      iapply (body0_first c Set.univ (grid0.coords t) _ _ _ _ _ _ _ (Memref.isWhole_whole _) hc0 hc1 (blk0 V c 0 t) (blk0 V c 1 t) _ _)
      isplitl [H0]; · iexact H0
      isplitl [H1]; · iexact H1
      isplitl [H2]; · iexact H2
      isplitl [HS]; · iexists _; iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2
  · have hz : t.val ≠ 0 := fun e => h0 (by rw [e])
    have hc0 : ¬first0 (grid0.coords t) := fun h => h0 ((first0_iff t).mp h)
    rw [acc0_next V c t h0, inv0_at V c t, inv0_pos V c _ _ hz]
    by_cases h1 : t.val % 8 = 7
    · have hc1 : last0 (grid0.coords t) := (last0_iff t).mpr h1
      rw [show (dat0 V c).leavesExact 2 t = owns (c : Thread nD τ) (ms0_2 t) fullShare ((dat0 V c).after 2 t) from by
        unfold Dat.leavesExact; rw [live0_2 t hc1], after0_2, acc0_next V c t h0]
      iintro ⟨⟨⟨HS, HR⟩, Hg⟩, Ho, ⟨%d0, H0⟩, ⟨%d1, H1⟩, ⟨%d2, H2⟩⟩
      iapply (body0_last c Set.univ (grid0.coords t) _ _ _ _ _ _ _ (Memref.isWhole_whole _) hc0 hc1 (blk0 V c 0 t) (blk0 V c 1 t) _ _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · have hc1 : ¬last0 (grid0.coords t) := fun h => h1 ((last0_iff t).mp h)
      rw [Dat.leavesExact_idle (dat0 V c) 2 t (idle0_2 t hc1) (keep0_2 t hc1)]
      iintro ⟨⟨⟨HS, HR⟩, Hg⟩, Ho, ⟨%d0, H0⟩, ⟨%d1, H1⟩, ⟨%d2, H2⟩⟩
      iapply (body0_mid c Set.univ (grid0.coords t) _ _ _ _ _ _ _ (Memref.isWhole_whole _) hc0 hc1 (blk0 V c 0 t) (blk0 V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- After any point the invariant gives back what the launch handed over, the running minimum forgotten. -/
theorem inv0_out (c : Dev nD) (t : Fin (cfg0.N + 1)) (ht : t.val ≠ 0) : (dat0 V c).Φ t ⊢ Pipeline.ΦA spec0 c := by
  rw [show (dat0 V c).Φ t = inv0 V c t.val (Nat.le_of_lt_succ t.isLt) from rfl, inv0_pos V c _ _ ht, handed0]
  iintro ⟨⟨HS, HR⟩, Hg⟩
  isplitl [HS HR]
  · isplitl [HS]; · iexists _; iexact HS
    iexact HR
  iexact Hg

end Region

end Cert.KernelIdeal.Rows

end
-- ==== Proof.KI.Region1.lean ====
/-
  The second pallas_call of the program: a grid of 8 x 8 points, point (i, j) holding 512 query
  points (tile i of the first operand) against 512 key points (tile j of the second). The body keeps, in a scratch buffer
  carried along a grid row, the running minimum over the key tiles seen so far of each query point's distance to the
  key points: refilled with +infinity at the row's first point, folded at every point, copied to the output block at the
  row's last point. This module runs the body in its three cases, names what the scratch holds after every point of the
  grid, and proves the pipeline's obligation for the body at every point, for any float instance.
-/
import proofs.«130966_j6863357739536_1_alg».proof.Proof.Gen.KernelIdeal.Launch
import proofs.«130966_j6863357739536_1_alg».proof.Proof.Gen.KernelIdeal.Skeleton
import proofs.«130966_j6863357739536_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«130966_j6863357739536_1_alg».proof.Proof.LibWholeStore
import proofs.«130966_j6863357739536_1_alg».proof.Proof.LibWholeStoreLast

set_option maxRecDepth 16384

noncomputable section

namespace Cert.KernelIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's first conditional: the point is the first of its row of the grid (key tile 0). -/
abbrev first1 (i : grid1.Coords) : Prop := (Scalar.cmpi .ne (Scalar.extui (Scalar.cmpi .eq (BitVec.ofNat 32 (i 1).val) 0#32)) 0#32) = 1#1
/-- The body's second conditional: the point is the last of its row of the grid (key tile 7). -/
abbrev last1 (i : grid1.Coords) : Prop := k1_cond2 i = 1#1

set_option maxHeartbeats 1000000 in
/-- At the first key tile the body refills the running minimum with +infinity, whatever it held, then folds this tile
    in: the scratch ends at the tile's minimum taken from +infinity; the blocks and the output buffer are untouched. -/
theorem body1_first (c : Dev nD) (E : Set ℕ) (i : grid1.Coords) (arg2 : Memref sig .tc .vmem S8x512x64 .bf16) (harg2 : arg2.IsWhole) (arg3 : Memref sig .tc .vmem S8x512x64 .bf16) (harg3 : arg3.IsWhole) (arg4 : Memref sig .tc .vmem S8x512 .f32) (harg4 : arg4.IsWhole) (arg5 : Memref sig .tc .vmem S8x512 .f32) (harg5 : arg5.IsWhole)
    (hc0 : first1 i) (hc1 : ¬last1 i) (x0 x1 : Vec F S8x512x64 .bf16) (xo : Vec F S8x512 .f32) (K : PUnit → sProp 𝕄) :
    iprop(owns (c : Thread nD τ) arg2 fullShare x0 ∗ owns (c : Thread nD τ) arg3 fullShare x1 ∗ owns (c : Thread nD τ) arg4 fullShare xo ∗ (∃ d, owns (c : Thread nD τ) arg5 fullShare d)
        ∗ (iprop(owns (c : Thread nD τ) arg2 fullShare x0 ∗ owns (c : Thread nD τ) arg3 fullShare x1 ∗ owns (c : Thread nD τ) arg4 fullShare xo ∗ owns (c : Thread nD τ) arg5 fullShare (k1_pay2 x0 x1 k1_pay1)) -∗ K ⟨⟩))
      ⊢ wp frame (wpE (defs₀ (F := F)) Variants.none c none) E (cc1__cdist_min_kernel i arg2 harg2 arg3 harg3 arg4 harg4 arg5 harg5) K := by
  simp only [cc1__cdist_min_kernel_eq_skeleton]; unfold cc1__cdist_min_kernel_skel
  unfold owns
  iintro ⟨⟨%f0, %hf0, H0⟩, ⟨%f1, %hf1, H1⟩, ⟨%fo, %hfo, HO⟩, ⟨%ds, %fs, -, HS⟩, Hk⟩
  obtain rfl := harg2.eq_unread hf0; obtain rfl := harg3.eq_unread hf1; obtain rfl := harg4.eq_unread hfo
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr; · ipureintro; exact harg4.read_unread _
    iexact HO
  iexists _; isplitr
  swap; · iexact HS
  ipureintro
  rw [WholeStore.read_writes_whole_last _ _ WholeStore.off2_zero]
  rw [WholeStore.readAt_whole _ _ WholeStore.off3_zero, WholeStore.readAt_whole _ _ WholeStore.off3_zero, harg2.read_unread, harg3.read_unread]
  sl_unfold_run_names
  rw [View.readCov_unit_zero _ WholeStore.off2_zero]

set_option maxHeartbeats 1000000 in
/-- At a middle key tile the body folds the tile into the running minimum the tile before left. -/
theorem body1_mid (c : Dev nD) (E : Set ℕ) (i : grid1.Coords) (arg2 : Memref sig .tc .vmem S8x512x64 .bf16) (harg2 : arg2.IsWhole) (arg3 : Memref sig .tc .vmem S8x512x64 .bf16) (harg3 : arg3.IsWhole) (arg4 : Memref sig .tc .vmem S8x512 .f32) (harg4 : arg4.IsWhole) (arg5 : Memref sig .tc .vmem S8x512 .f32) (harg5 : arg5.IsWhole)
    (hc0 : ¬first1 i) (hc1 : ¬last1 i) (x0 x1 : Vec F S8x512x64 .bf16) (xo xs : Vec F S8x512 .f32) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare xs
        ∗ (iprop(owns (c : Thread nD τ) arg2 fullShare x0 ∗ owns (c : Thread nD τ) arg3 fullShare x1 ∗ owns (c : Thread nD τ) arg4 fullShare xo ∗ owns (c : Thread nD τ) arg5 fullShare (k1_pay2 x0 x1 xs)) -∗ K ⟨⟩))
      ⊢ wp frame (wpE (defs₀ (F := F)) Variants.none c none) E (cc1__cdist_min_kernel i arg2 harg2 arg3 harg3 arg4 harg4 arg5 harg5) K := by
  simp only [cc1__cdist_min_kernel_eq_skeleton]; unfold cc1__cdist_min_kernel_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr; · ipureintro; exact harg4.read_unread _
    iexact HO
  iexists _; isplitr
  swap; · iexact HS
  ipureintro
  rw [WholeStore.read_writes_whole _ _ WholeStore.off2_zero]
  rw [WholeStore.readAt_whole _ _ WholeStore.off3_zero, WholeStore.readAt_whole _ _ WholeStore.off3_zero, WholeStore.readAt_whole _ _ WholeStore.off2_zero, harg2.read_unread, harg3.read_unread, harg5.read_unread]

set_option maxHeartbeats 1000000 in
/-- At the last key tile the body folds the tile in and copies the finished running minimum to the output buffer. -/
theorem body1_last (c : Dev nD) (E : Set ℕ) (i : grid1.Coords) (arg2 : Memref sig .tc .vmem S8x512x64 .bf16) (harg2 : arg2.IsWhole) (arg3 : Memref sig .tc .vmem S8x512x64 .bf16) (harg3 : arg3.IsWhole) (arg4 : Memref sig .tc .vmem S8x512 .f32) (harg4 : arg4.IsWhole) (arg5 : Memref sig .tc .vmem S8x512 .f32) (harg5 : arg5.IsWhole)
    (hc0 : ¬first1 i) (hc1 : last1 i) (x0 x1 : Vec F S8x512x64 .bf16) (xs : Vec F S8x512 .f32) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (k1_pay2 x0 x1 xs) ∗ owns (c : Thread nD τ) arg5 fullShare (k1_pay2 x0 x1 xs)) -∗ K ⟨⟩))
      ⊢ wp frame (wpE (defs₀ (F := F)) Variants.none c none) E (cc1__cdist_min_kernel i arg2 harg2 arg3 harg3 arg4 harg4 arg5 harg5) K := by
  simp only [cc1__cdist_min_kernel_eq_skeleton]; unfold cc1__cdist_min_kernel_skel
  unfold owns
  iintro ⟨⟨%f0, %hf0, H0⟩, ⟨%f1, %hf1, H1⟩, ⟨%dO, %fo, -, HO⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr
    swap; · iexact HO
    ipureintro
    rw [WholeStore.read_writes_whole _ _ WholeStore.off2_zero]
    sl_unfold_run_names
    rw [View.readCov_unit_zero _ WholeStore.off2_zero]
    rw [WholeStore.readAt_whole _ _ WholeStore.off3_zero, WholeStore.readAt_whole _ _ WholeStore.off3_zero, WholeStore.readAt_whole _ _ WholeStore.off2_zero, harg2.read_unread, harg3.read_unread, harg5.read_unread]
  iexists _; isplitr
  swap; · iexact HS
  ipureintro
  sl_unfold_run_names
  rw [WholeStore.read_writes_whole _ _ WholeStore.off2_zero]
  rw [WholeStore.readAt_whole _ _ WholeStore.off3_zero, WholeStore.readAt_whole _ _ WholeStore.off3_zero, WholeStore.readAt_whole _ _ WholeStore.off2_zero, harg2.read_unread, harg3.read_unread, harg5.read_unread]

/-! ## The windows' blocks, the schedule, the buffers -/

section Region

variable (V : (c : Dev nD) → (b : Ref sig .tc) → Buf (Elt F) ((c : Thread nD τ).loc b))

/-- Window `w`'s block at grid point `t`, read off its array as the region finds it: for the query window 512 rows of
    tile `t / 8`, for the key window 512 rows of tile `t % 8`. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's staging buffer holds its block at every point: it is fetched at the first point of each grid row
    and its block index does not move along the row. -/
theorem found1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The key window's staging buffer holds its block at every point (it is fetched at every point). -/
theorem found1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- Point `t` is the first of its grid row exactly when `t` is a multiple of 8 — decided over the 64 points. -/
theorem first1_iff : ∀ t : Fin cfg1.N, first1 (grid1.coords t) ↔ t.val % 8 = 0 :=
  (by decide +kernel : ∀ t : Fin grid1.N, first1 (grid1.coords t) ↔ t.val % 8 = 0)
/-- Point `t` is the last of its grid row exactly when `t` is 7 modulo 8. -/
theorem last1_iff : ∀ t : Fin cfg1.N, last1 (grid1.coords t) ↔ t.val % 8 = 7 :=
  (by decide +kernel : ∀ t : Fin grid1.N, last1 (grid1.coords t) ↔ t.val % 8 = 7)

/-- The input windows are never idle. -/
theorem live1_0 : ∀ t : Fin cfg1.N, cfg1.idle 0 (grid1.coords t) = false := by decide +kernel
theorem live1_1 : ∀ t : Fin cfg1.N, cfg1.idle 1 (grid1.coords t) = false := by decide +kernel
/-- Away from the last point of a grid row the output window is idle and is not written back. -/
theorem idle1_2 : ∀ t : Fin cfg1.N, ¬last1 (grid1.coords t) → cfg1.idle 2 (grid1.coords t) = true := by decide +kernel
theorem keep1_2 : ∀ t : Fin cfg1.N, ¬last1 (grid1.coords t) → (cfg1.win 2).flush t = false := by decide +kernel
/-- At the last point of a grid row it is live. -/
theorem live1_2 : ∀ t : Fin cfg1.N, last1 (grid1.coords t) → cfg1.idle 2 (grid1.coords t) = false := by decide +kernel

/-- Each window's current staging memref at point `t`, as the pipeline passes it to the body, and its wholeness. -/
abbrev ms1_0 (t : Fin cfg1.N) : Memref sig .tc .vmem S8x512x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x512x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x512 .f32 := win1_2.stage (cfg1.slots t 2)
abbrev hs1_2 (t : Fin cfg1.N) : (ms1_2 t).IsWhole := hstage1_2 ((cfg1.slots t 2).cast nbuf1_2)
/-- The running-minimum scratch: a whole scoped buffer of the kernel's own. -/
abbrev scr1 : Memref sig .tc .vmem S8x512 .f32 := Memref.whole cc1_scratch0

/-- The core's scoped buffers that this region neither stages through nor keeps its running minimum in (the other
    pallas_call's staging buffers and scratch), each at some contents. -/
abbrev others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- What the launch hands the region besides the windows: the scratch at some contents, those other buffers, and the
    generator register at some state. -/
theorem handed1 (c : Dev nD) :
    (Pipeline.ΦA spec1 c : sProp 𝕄) = iprop(iprop((∃ d, owns (c : Thread nD τ) scr1 fullShare d) ∗ others1 c) ∗ (∃ r, prngReg c r)) := by
  unfold Pipeline.ΦA
  rw [Pipeline.scopedRest_eq_of_list spec1 c [cc1_scratch0, cc0_stg0_0, cc0_stg0_1, cc0_stg1_0, cc0_stg1_1, cc0_stg2_0, cc0_stg2_1, cc0_scratch0] (by decide) (by decide)]
  simp only [scr1, owns_whole]; try rfl

/-! ## The running minimum, point by point -/

/-- What the scratch holds after the body at position `n` of the grid (row-major: query tile `n / 8`, key tile `n % 8`):
    at the first key tile of a row the tile's minimum taken from +infinity, afterwards the tile's minimum folded into
    what the position before left. -/
def acc1 (c : Dev nD) : (n : ℕ) → n < cfg1.N → Vec F S8x512 .f32
  | 0, hn => k1_pay2 (blk1 V c 0 ⟨0, hn⟩) (blk1 V c 1 ⟨0, hn⟩) k1_pay1
  | n + 1, hn =>
    if (n + 1) % 8 = 0 then k1_pay2 (blk1 V c 0 ⟨n + 1, hn⟩) (blk1 V c 1 ⟨n + 1, hn⟩) k1_pay1
    else k1_pay2 (blk1 V c 0 ⟨n + 1, hn⟩) (blk1 V c 1 ⟨n + 1, hn⟩) (acc1 c n (Nat.lt_of_succ_lt hn))

/-- At the first point of a grid row: the tile's minimum from +infinity. -/
theorem acc1_first (c : Dev nD) (t : Fin cfg1.N) (h : t.val % 8 = 0) :
    acc1 V c t.val t.isLt = k1_pay2 (blk1 V c 0 t) (blk1 V c 1 t) k1_pay1 := by
  obtain ⟨n, hn⟩ := t
  cases n with
  | zero => rfl
  | succ n => exact if_pos h

/-- At any other point: the tile's minimum folded into the point before's. -/
theorem acc1_next (c : Dev nD) (t : Fin cfg1.N) (h : ¬t.val % 8 = 0) :
    acc1 V c t.val t.isLt = k1_pay2 (blk1 V c 0 t) (blk1 V c 1 t) (acc1 V c (t.val - 1) (Nat.lt_of_le_of_lt (Nat.sub_le _ _) t.isLt)) := by
  obtain ⟨n, hn⟩ := t
  cases n with
  | zero => exact absurd (Nat.zero_mod _) h
  | succ n => exact if_neg h

/-- The region's invariant before position `n`: before the first point what the launch hands over; afterwards the
    scratch at the running minimum the point before left, the other scoped buffers and the generator register at
    anything. -/
def inv1 (c : Dev nD) : (n : ℕ) → n ≤ cfg1.N → sProp 𝕄
  | 0, _ => Pipeline.ΦA spec1 c
  | n + 1, hn => iprop(iprop(owns (c : Thread nD τ) scr1 fullShare (acc1 V c n hn) ∗ others1 c) ∗ (∃ r, prngReg c r))

theorem inv1_pos (c : Dev nD) (n : ℕ) (h : n ≤ cfg1.N) (hz : n ≠ 0) :
    inv1 V c n h = iprop(iprop(owns (c : Thread nD τ) scr1 fullShare (acc1 V c (n - 1) (by omega)) ∗ others1 c) ∗ (∃ r, prngReg c r)) := by
  cases n with
  | zero => exact absurd rfl hz
  | succ n => rfl

/-! ## The pipeline's proof data -/

/-- On core `c`: the arrays as the region finds them; after the body at point `t` the two input buffers at their blocks
    and the output buffer at the running minimum (it is consulted only at the last point of a grid row, where the body
    has just copied the running minimum there); the invariant above; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => acc1 V c t.val t.isLt
  Φ t := inv1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = acc1 V c t.val t.isLt := by dsimp only [dat1]
theorem before1_0 (c : Dev nD) (t : Fin cfg1.N) (d) : (dat1 V c).before 0 t d = blk1 V c 0 t :=
  found1_0 V (dat1 V c) (A_eq1 V c 0) (after1_0 V c) t d
theorem before1_1 (c : Dev nD) (t : Fin cfg1.N) (d) : (dat1 V c).before 1 t d = blk1 V c 1 t :=
  found1_1 V (dat1 V c) (A_eq1 V c 1) (after1_1 V c) t d
theorem inv1_at (c : Dev nD) (t : Fin cfg1.N) :
    (dat1 V c).Φ t.castSucc = inv1 V c t.val (Nat.le_of_lt t.isLt) := by
  dsimp only [dat1]; simp only [Fin.coe_castSucc]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the input buffers hold their blocks; the point is the first of its grid row, the last, or
    neither, and the matching run of the body applies; the invariant hands over the scratch — at anything at a row's
    first point, at the running minimum otherwise — and takes it back at this point's running minimum. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = inv1 V c (t.val + 1) t.isLt from rfl]
  rw [show inv1 V c (t.val + 1) t.isLt = iprop(iprop(owns (c : Thread nD τ) scr1 fullShare (acc1 V c t.val t.isLt) ∗ others1 c) ∗ (∃ r, prngReg c r)) from rfl]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  by_cases h0 : t.val % 8 = 0
  · have h1 : ¬t.val % 8 = 7 := by omega
    have hc0 : first1 (grid1.coords t) := (first1_iff t).mpr h0
    have hc1 : ¬last1 (grid1.coords t) := fun h => h1 ((last1_iff t).mp h)
    rw [Dat.leavesExact_idle (dat1 V c) 2 t (idle1_2 t hc1) (keep1_2 t hc1)]
    rw [acc1_first V c t h0]
    by_cases hz : t.val = 0
    · rw [inv1_at V c t, show inv1 V c t.val (Nat.le_of_lt t.isLt) = Pipeline.ΦA spec1 c from by
        have : ∀ (n : ℕ) (h : n ≤ cfg1.N), n = 0 → inv1 V c n h = Pipeline.ΦA spec1 c := fun n h e => by subst e; rfl
        exact this _ _ hz, handed1]
      iintro ⟨⟨⟨HS, HR⟩, Hg⟩, Ho, ⟨%d0, H0⟩, ⟨%d1, H1⟩, ⟨%d2, H2⟩⟩
      iapply (body1_first c Set.univ (grid1.coords t) _ _ _ _ _ _ _ (Memref.isWhole_whole _) hc0 hc1 (blk1 V c 0 t) (blk1 V c 1 t) _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2
    · rw [inv1_at V c t, inv1_pos V c _ _ hz]
      iintro ⟨⟨⟨HS, HR⟩, Hg⟩, Ho, ⟨%d0, H0⟩, ⟨%d1, H1⟩, ⟨%d2, H2⟩⟩
      iapply (body1_first c Set.univ (grid1.coords t) _ _ _ _ _ _ _ (Memref.isWhole_whole _) hc0 hc1 (blk1 V c 0 t) (blk1 V c 1 t) _ _)
      isplitl [H0]; · iexact H0
      isplitl [H1]; · iexact H1
      isplitl [H2]; · iexact H2
      isplitl [HS]; · iexists _; iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2
  · have hz : t.val ≠ 0 := fun e => h0 (by rw [e])
    have hc0 : ¬first1 (grid1.coords t) := fun h => h0 ((first1_iff t).mp h)
    rw [acc1_next V c t h0, inv1_at V c t, inv1_pos V c _ _ hz]
    by_cases h1 : t.val % 8 = 7
    · have hc1 : last1 (grid1.coords t) := (last1_iff t).mpr h1
      rw [show (dat1 V c).leavesExact 2 t = owns (c : Thread nD τ) (ms1_2 t) fullShare ((dat1 V c).after 2 t) from by
        unfold Dat.leavesExact; rw [live1_2 t hc1], after1_2, acc1_next V c t h0]
      iintro ⟨⟨⟨HS, HR⟩, Hg⟩, Ho, ⟨%d0, H0⟩, ⟨%d1, H1⟩, ⟨%d2, H2⟩⟩
      iapply (body1_last c Set.univ (grid1.coords t) _ _ _ _ _ _ _ (Memref.isWhole_whole _) hc0 hc1 (blk1 V c 0 t) (blk1 V c 1 t) _ _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · have hc1 : ¬last1 (grid1.coords t) := fun h => h1 ((last1_iff t).mp h)
      rw [Dat.leavesExact_idle (dat1 V c) 2 t (idle1_2 t hc1) (keep1_2 t hc1)]
      iintro ⟨⟨⟨HS, HR⟩, Hg⟩, Ho, ⟨%d0, H0⟩, ⟨%d1, H1⟩, ⟨%d2, H2⟩⟩
      iapply (body1_mid c Set.univ (grid1.coords t) _ _ _ _ _ _ _ (Memref.isWhole_whole _) hc0 hc1 (blk1 V c 0 t) (blk1 V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- After any point the invariant gives back what the launch handed over, the running minimum forgotten. -/
theorem inv1_out (c : Dev nD) (t : Fin (cfg1.N + 1)) (ht : t.val ≠ 0) : (dat1 V c).Φ t ⊢ Pipeline.ΦA spec1 c := by
  rw [show (dat1 V c).Φ t = inv1 V c t.val (Nat.le_of_lt_succ t.isLt) from rfl, inv1_pos V c _ _ ht, handed1]
  iintro ⟨⟨HS, HR⟩, Hg⟩
  isplitl [HS HR]
  · isplitl [HS]; · iexists _; iexact HS
    iexact HR
  iexact Hg

end Region

end Cert.KernelIdeal.Rows

end
-- ==== Proof.KI.Run.lean ====
/-
  The whole program as a chain of four stretches — the two conversions of the arguments, the first pallas_call, the
  second, and the closing reductions — run from any memory: the contents of every buffer at each boundary, each
  pallas_call entered from the boundary before it and left at the one after it (its output array at what the pipeline's
  write-backs leave, everything else untouched), and the run to the end with every unscoped buffer at the last boundary's
  contents. The argument arrays come out as launched; the result is the closing reductions of the two outputs.
-/
import proofs.«130966_j6863357739536_1_alg».proof.Proof.KI.Region0
import proofs.«130966_j6863357739536_1_alg».proof.Proof.KI.Region1
import proofs.«130966_j6863357739536_1_alg».proof.Proof.Gen.KernelIdeal.Regions

set_option maxRecDepth 16384

noncomputable section

namespace Cert.KernelIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev B0 : Dev nD → Valuation τ sig (Elt F) := fun c b => m (c, b)
/-- After the two conversions: where the first pallas_call is entered. -/
abbrev B1 : Dev nD → Valuation τ sig (Elt F) := fun c => StableHlo.after hostOps0 (B0 m c)
abbrev E1 : (c : Dev nD) → (b : Ref sig .tc) → Buf (Elt F) ((c : Thread nD τ).loc b) := fun c b => B1 m c b
/-- After the first pallas_call: its arrays at what the pipeline leaves, every other buffer as entered. -/
def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_other (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev E2 : (c : Dev nD) → (b : Ref sig .tc) → Buf (Elt F) ((c : Thread nD τ).loc b) := fun c b => B2 m c b
theorem left0 (c : Dev nD) (w : Fin cfg0.W) : (dat0 (E1 m) c).arrAt w cfg0.N = E2 m c (Pipeline.arrRef spec0 w) :=
  (B2_arr m c w).symm
theorem kept0 (c : Dev nD) : ∀ b, b ∉ Finset.univ.image (Pipeline.arrRef spec0) → E2 m c b = E1 m c b :=
  fun b hb => B2_other m c b fun w e => hb (Finset.mem_image.mpr ⟨w, Finset.mem_univ _, e⟩)
/-- After the second pallas_call. -/
def B3 (c : Dev nD) : Valuation τ sig (Elt F) :=
  Pipeline.withArrays spec1 c (B2 m c) fun w => (dat1 (E2 m) c).arrAt w cfg1.N
theorem B3_arr (c : Dev nD) (w : Fin cfg1.W) :
    B3 m c (Proc.devRef .tc (Pipeline.arrRef spec1 w)) = (dat1 (E2 m) c).arrAt w cfg1.N := by
  unfold B3; exact Pipeline.withArrays_arr spec1 launch1.win.arr_inj c _ _ w
theorem B3_other (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev E3 : (c : Dev nD) → (b : Ref sig .tc) → Buf (Elt F) ((c : Thread nD τ).loc b) := fun c b => B3 m c b
theorem left1 (c : Dev nD) (w : Fin cfg1.W) : (dat1 (E2 m) c).arrAt w cfg1.N = E3 m c (Pipeline.arrRef spec1 w) :=
  (B3_arr m c w).symm
theorem kept1 (c : Dev nD) : ∀ b, b ∉ Finset.univ.image (Pipeline.arrRef spec1) → E3 m c b = E2 m c b :=
  fun b hb => B3_other m c b fun w e => hb (Finset.mem_image.mpr ⟨w, Finset.mem_univ _, e⟩)
/-- After the closing reductions: the end. -/
abbrev B4 : Dev nD → Valuation τ sig (Elt F) := fun c => StableHlo.after hostOps2 (B3 m c)

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
abbrev 𝒱₀ : Variants := Variants.none
abbrev L : GSem nD τ sig → Finset Unit := fun _ => ∅
abbrev lv : GSem nD τ sig → Unit → ℕ := fun _ _ => 0
/-- What rides beside the buffers through every stretch: the generator register at some state, and the core owing
    nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B4 m c) ∗ ∃ r, prngReg c r)

/-! ## The two pallas_calls as segments -/

set_option backward.isDefEq.respectTransparency.types false in
/-- The first pallas_call: entered with every unscoped buffer at `B1`, left with them at `B2`. Its arrays are split out
    of the unscoped buffers and put back at their exit contents; the generator register goes into the region's invariant
    and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (inv0_out (E1 m) c (Fin.last _) (by rw [Fin.val_last]; have : cfg0.N = 64 := N_0; omega)).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call: entered at `B2`, left at `B3`, in the same way. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (B2 m c) ∗ R c)
  post c := iprop(StableHlo.held (c : Thread nD τ) (Pipeline.ucRefs τ sig) (B3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (inv1_out (E2 m) c (Fin.last _) (by rw [Fin.val_last]; have : cfg1.N = 64 := N_1; omega)).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (left1 m c) (kept1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh (B0 m)),
    .region (reg0 m),
    .region (reg1 m),
    .host (hseg hostOps2 hostOps2_sub hostOps2_fresh (B3 m)) ]
theorem main_run (c : Dev nD) : main (F := F) c = Pipeline.Seg.run (segs m) := (main_chain c).trans (by chain_rfl)

set_option backward.isDefEq.respectTransparency.types false in
/-- From any memory with zero counters every weakly fair execution of the program terminates, nothing faulting, and
    every final memory holds each unscoped buffer at the last boundary's contents `B4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun c => by
      show (iprop(StableHlo.held (c : Thread nD τ) (Pipeline.ucRefs τ sig) (B4 m c) ∗ R c) : sProp 𝕄)
        ⊢ iprop(Tₙ m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m c b)
    (hfin := fun c s' => by
      iintro ⟨⟨Hh, -⟩, HSI⟩
      unfold StableHlo.held
      imodintro
      iapply (pointsTo_read_all (Pipeline.ucRefs τ sig) (fun b => (((c : Thread nD τ)).1, b)) (B4 m c) s')
      isplitl [Hh] <;> iassumption)
    (hQ := fun s h c => h c)

/-! ## The arguments end as launched -/

theorem B4_arg0 (c : Dev nD) : B4 m c (Proc.devRef .tc main_arg0) = m ((c : Thread nD τ).loc main_arg0) :=
  calc B4 m c (Proc.devRef .tc main_arg0)
    _ = B3 m c (Proc.devRef .tc main_arg0) := StableHlo.after_of_writes_sub hostOps2 _ hostOps2_writes (by decide)
    _ = B2 m c (Proc.devRef .tc main_arg0) := B3_other m c main_arg0 (by decide)
    _ = B1 m c (Proc.devRef .tc main_arg0) := B2_other m c main_arg0 (by decide)
    _ = B0 m c (Proc.devRef .tc main_arg0) := StableHlo.after_of_writes_sub hostOps0 _ hostOps0_writes (by decide)
    _ = m ((c : Thread nD τ).loc main_arg0) := rfl
theorem B4_arg1 (c : Dev nD) : B4 m c (Proc.devRef .tc main_arg1) = m ((c : Thread nD τ).loc main_arg1) :=
  calc B4 m c (Proc.devRef .tc main_arg1)
    _ = B3 m c (Proc.devRef .tc main_arg1) := StableHlo.after_of_writes_sub hostOps2 _ hostOps2_writes (by decide)
    _ = B2 m c (Proc.devRef .tc main_arg1) := B3_other m c main_arg1 (by decide)
    _ = B1 m c (Proc.devRef .tc main_arg1) := B2_other m c main_arg1 (by decide)
    _ = B0 m c (Proc.devRef .tc main_arg1) := StableHlo.after_of_writes_sub hostOps0 _ hostOps0_writes (by decide)
    _ = m ((c : Thread nD τ).loc main_arg1) := rfl

/-- The frame: the program runs to the end, faults nowhere, and leaves its argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (B4_arg0 m c),
     (h c _ (mem_uc main_arg1 (by decide))).trans (B4_arg1 m c)⟩) (run_all m ρ)

end Cert.KernelIdeal.Rows

end
-- ==== Proof.Spec.lean ====
/-
  The Hausdorff distance between two batches of point sets, in the form both programs compute it, as pure functions
  of the coordinates on the extended reals.

  A batch of point sets is a function `x b n d`: batch `b`, point `n`, coordinate `d` (64 coordinates). The distance of
  point `n` of `x` to point `m` of `y` is taken through the Gram form
  `sqrt (max ((|x_n|^2 + |y_m|^2) - 2 <x_n, y_m>) floor)`, the floor and the factor two being the two float words both
  programs spell. `nearest x y b n` is the least such distance over all points `m` of `y` (a fold of `min` from the
  word of +infinity). The Gram form is symmetric in its two arguments, since sums and products of extended reals commute;
  and a fold of `min` over a range split into consecutive tiles is the `min` of the tiles' folds.
-/
import Idealize.ShloMosaic.PureOps.Ideal
import Idealize.ShloMosaic.Lib.ValueIdx
import Mathlib.Data.Finset.Fold

noncomputable section

open scoped BigOperators

namespace Cert.Hausdorff

open Idealize.ShloMosaic

/-- The float word of +infinity, the start value of every running minimum. -/
def topW : EReal := Ideal.ofBits .f32 0x7F800000#32
/-- The factor two in front of the inner product, as both programs spell it. -/
def twoW : EReal := Ideal.ofBits .f32 0x40000000#32
/-- The floor under the squared distance, as both programs spell it. -/
def floorW : EReal := Ideal.ofBits .f32 0x2B8CBCCC#32

variable {N M : ℕ}

/-- The squared norm of point `n` of batch `b`. -/
def sqn (x : Fin 8 → Fin N → Fin 64 → EReal) (b : Fin 8) (n : Fin N) : EReal :=
  ∑ d : Fin 64, x b n d * x b n d

/-- The inner product of point `n` of `x` with point `m` of `y`, in batch `b`. -/
def dot (x : Fin 8 → Fin N → Fin 64 → EReal) (y : Fin 8 → Fin M → Fin 64 → EReal) (b : Fin 8) (n : Fin N) (m : Fin M) : EReal :=
  ∑ d : Fin 64, x b n d * y b m d

/-- The distance of point `n` of `x` to point `m` of `y` through the Gram form, floored before the root. -/
def dist (x : Fin 8 → Fin N → Fin 64 → EReal) (y : Fin 8 → Fin M → Fin 64 → EReal) (b : Fin 8) (n : Fin N) (m : Fin M) : EReal :=
  Ideal.sqrt (max ((sqn x b n + sqn y b m) - twoW * dot x y b n m) floorW)

/-- The distance of point `n` of `x` to the nearest point of `y`. -/
def nearest (x : Fin 8 → Fin N → Fin 64 → EReal) (y : Fin 8 → Fin M → Fin 64 → EReal) (b : Fin 8) (n : Fin N) : EReal :=
  (Finset.univ : Finset (Fin M)).fold min topW (fun m => dist x y b n m)

/-- The distance of point `m` of `y` to the nearest point of `x` (the same Gram form, the minimum over `x`'s points). -/
def nearestTo (x : Fin 8 → Fin N → Fin 64 → EReal) (y : Fin 8 → Fin M → Fin 64 → EReal) (b : Fin 8) (m : Fin M) : EReal :=
  (Finset.univ : Finset (Fin N)).fold min topW (fun n => dist x y b n m)

/-- An array of shape [8, N, 64] as a batch of point sets. -/
def pts (X : (⟨3, ![8, N, 64]⟩ : Shape).Idx → EReal) : Fin 8 → Fin N → Fin 64 → EReal :=
  fun b n d => X (ValueIdx.ix3 b n d)

/-- Tile `j` (512 consecutive points) of a set of 4096 points. -/
def tile (y : Fin 8 → Fin 4096 → Fin 64 → EReal) (j : ℕ) : Fin 8 → Fin 512 → Fin 64 → EReal :=
  fun b s d => y b ⟨(512 * j + s.val) % 4096, Nat.mod_lt _ (by norm_num)⟩ d

/-- A running minimum over tiles `0 … j`: started from +infinity at tile 0, then folded tile by tile. -/
def runMin (g : ℕ → EReal) : ℕ → EReal
  | 0 => min topW (g 0)
  | j + 1 => min (runMin g j) (g (j + 1))

end Cert.Hausdorff

end
-- ==== Proof.LibMaxMinFold.lean ====
/-
  General facts about maxima and minima taken as folds, at the extended reals.

  1. Grouping. In a linear order the fold of `max` from a start value `b` over a finite family is the least upper bound
     of `b` and the family's terms; so the maximum of four such folds over four sub-families, each from the same `b`,
     is the fold over the whole family as soon as every index lies in one of the four (`b` counted four times is
     harmless: `max` is idempotent). The same for `min` and greatest lower bounds. Nothing is asked of the terms: the
     statements hold at +∞ and −∞.
  2. Reductions over ONE axis read at a result index, with the extended reals as values: a vector `multi_reduction` by
     `minimumf` and the host's one-operand `reduce` with a `maximumf` or `minimumf` body are the fold of `min` / `max`,
     from the initial value, over that axis's coordinates `k`, of the source at the result index with `k` inserted on
     the dropped axis. (For a vector `multi_reduction` by `maximumf` this is the library's
     `Ideal.multiReduction_maximumf_single`.)
-/
import Idealize.ShloMosaic.PureOps.Ideal.Laws
import Mathlib.Data.Finset.Fold

noncomputable section

namespace Cert.MaxMinFold

open Idealize.ShloMosaic

/-! ## Folding over four sub-families that cover the index set -/

section Runs

variable {α : Type} [LinearOrder α] {ι κ : Type} [Fintype ι] [Fintype κ]

/-- The maximum of four partial maxima, each folded from `b` over one sub-family `f ∘ g c`, is the maximum folded from
    `b` over the whole family `f`, when every index of `f` is `g c k` for some `c` and `k`. Both sides are the least upper
    bound of `b` and the terms of `f`. -/
theorem fold_max_runs (b : α) (f : ι → α) (g0 g1 g2 g3 : κ → ι)
    (hcov : ∀ i : ι, ∃ k : κ, g0 k = i ∨ g1 k = i ∨ g2 k = i ∨ g3 k = i) :
    max (max (max (Finset.univ.fold max b (f ∘ g0)) (Finset.univ.fold max b (f ∘ g1)))
        (Finset.univ.fold max b (f ∘ g2))) (Finset.univ.fold max b (f ∘ g3))
      = Finset.univ.fold max b f := by
  have hb : ∀ g : κ → ι, b ≤ Finset.univ.fold max b (f ∘ g) := fun g =>
    (Finset.le_fold_max _).2 (Or.inl le_rfl)
  have hk : ∀ (g : κ → ι) (k : κ), f (g k) ≤ Finset.univ.fold max b (f ∘ g) := fun g k =>
    (Finset.le_fold_max _).2 (Or.inr ⟨k, Finset.mem_univ k, le_rfl⟩)
  have hrun : ∀ g : κ → ι, Finset.univ.fold max b (f ∘ g) ≤ Finset.univ.fold max b f := fun g =>
    (Finset.fold_max_le _).2 ⟨(Finset.le_fold_max _).2 (Or.inl le_rfl),
      fun k _ => (Finset.le_fold_max _).2 (Or.inr ⟨g k, Finset.mem_univ _, le_rfl⟩)⟩
  apply le_antisymm
  · exact max_le (max_le (max_le (hrun g0) (hrun g1)) (hrun g2)) (hrun g3)
  · refine (Finset.fold_max_le _).2 ⟨?_, fun i _ => ?_⟩
    · exact le_max_of_le_right (hb g3)
    · obtain ⟨k, h | h | h | h⟩ := hcov i
      · rw [← h]; exact le_max_of_le_left (le_max_of_le_left (le_max_of_le_left (hk g0 k)))
      · rw [← h]; exact le_max_of_le_left (le_max_of_le_left (le_max_of_le_right (hk g1 k)))
      · rw [← h]; exact le_max_of_le_left (le_max_of_le_right (hk g2 k))
      · rw [← h]; exact le_max_of_le_right (hk g3 k)

/-- The same for the minimum: both sides are the greatest lower bound of `b` and the terms of `f`. -/
theorem fold_min_runs (b : α) (f : ι → α) (g0 g1 g2 g3 : κ → ι)
    (hcov : ∀ i : ι, ∃ k : κ, g0 k = i ∨ g1 k = i ∨ g2 k = i ∨ g3 k = i) :
    min (min (min (Finset.univ.fold min b (f ∘ g0)) (Finset.univ.fold min b (f ∘ g1)))
        (Finset.univ.fold min b (f ∘ g2))) (Finset.univ.fold min b (f ∘ g3))
      = Finset.univ.fold min b f := by
  have hb : ∀ g : κ → ι, Finset.univ.fold min b (f ∘ g) ≤ b := fun g =>
    (Finset.fold_min_le _).2 (Or.inl le_rfl)
  have hk : ∀ (g : κ → ι) (k : κ), Finset.univ.fold min b (f ∘ g) ≤ f (g k) := fun g k =>
    (Finset.fold_min_le _).2 (Or.inr ⟨k, Finset.mem_univ k, le_rfl⟩)
  have hrun : ∀ g : κ → ι, Finset.univ.fold min b f ≤ Finset.univ.fold min b (f ∘ g) := fun g =>
    (Finset.le_fold_min _).2 ⟨(Finset.fold_min_le _).2 (Or.inl le_rfl),
      fun k _ => (Finset.fold_min_le _).2 (Or.inr ⟨g k, Finset.mem_univ _, le_rfl⟩)⟩
  apply le_antisymm
  · refine (Finset.le_fold_min _).2 ⟨?_, fun i _ => ?_⟩
    · exact min_le_of_right_le (hb g3)
    · obtain ⟨k, h | h | h | h⟩ := hcov i
      · rw [← h]; exact min_le_of_left_le (min_le_of_left_le (min_le_of_left_le (hk g0 k)))
      · rw [← h]; exact min_le_of_left_le (min_le_of_left_le (min_le_of_right_le (hk g1 k)))
      · rw [← h]; exact min_le_of_left_le (min_le_of_right_le (hk g2 k))
      · rw [← h]; exact min_le_of_right_le (hk g3 k)
  · exact le_min (le_min (le_min (hrun g0) (hrun g1)) (hrun g2)) (hrun g3)

end Runs

/-! ## One-axis reductions at the extended reals, read at a result index -/

section OneAxis

variable {s t : Shape} {a : Fin s.rank}

/-- A float vector `multi_reduction` by `minimumf` over one axis, at the extended reals: the fold of `min`, from the
    accumulator word's value, over that axis's coordinates. -/
theorem multiReduction_minimumf_single {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]
  exact h.fold_filter_drop_single _ _ src j

/-- The host's one-operand `reduce` with a `maximumf` body over one axis, at the extended reals: the fold of `max`, from
    the initial value's element, over that axis's coordinates. -/
theorem hostReduce_maximumf_single {u : Shape} {φ : FTy} (x : s.Idx → EReal) (init : u.Idx → EReal)
    (h' : s.ReducesTo [a] t) (h : s.Reduces [a] t) (hu : 0 < u.numel) (j : t.Idx) :
    Host.reduce (FloatOps.maximumf (F := Ideal) (φ := φ)) x init h' hu j
      = (Finset.univ : Finset (Fin (s.size a))).fold max (init (Shape.Idx.first hu)) (x ∘ h.lift j) :=
  Host.reduce_eq_fold_single (FloatOps.maximumf (F := Ideal) (φ := φ)) x init h' h hu j

/-- The same with a `minimumf` body: the fold of `min`. -/
theorem hostReduce_minimumf_single {u : Shape} {φ : FTy} (x : s.Idx → EReal) (init : u.Idx → EReal)
    (h' : s.ReducesTo [a] t) (h : s.Reduces [a] t) (hu : 0 < u.numel) (j : t.Idx) :
    Host.reduce (FloatOps.minimumf (F := Ideal) (φ := φ)) x init h' hu j
      = (Finset.univ : Finset (Fin (s.size a))).fold min (init (Shape.Idx.first hu)) (x ∘ h.lift j) :=
  Host.reduce_eq_fold_single (FloatOps.minimumf (F := Ideal) (φ := φ)) x init h' h hu j

end OneAxis

end Cert.MaxMinFold

end
-- ==== Proof.TileValue.lean ====
/-
  The arithmetic of one tile step, read at an index, at the extended reals.

  One step takes a block `x` of 512 points and a block `y` of 512 points (8 batches, 64 coordinates each) and a running
  minimum `a` (one value per batch and point of `x`). It forms, for every batch `b`, point `r` of `x` and point `s`
  of `y`, the Gram form of the distance,
  `sqrt (max ((|x_r|^2 + |y_s|^2) - 2 <x_r, y_s>) floor)`, takes its minimum over `s` from +infinity, and returns the
  minimum of that with `a` at `(b, r)`. Written as array operations this is: the two row sums of squares (a sum over
  the coordinate axis), the inner products (a contraction of the two blocks over the coordinate axis, from a zero
  accumulator), the two sums of squares laid along a column and along a row of a [8, 512, 512] array (a change of shape
  that adds a unit axis, then a broadcast along it), elementwise arithmetic, and a minimum over the last axis.

  Each operation that is not elementwise is read at an index written by its coordinates: a sum over the last axis at
  `(b, r)` is the sum over `d` of the operand at `(b, r, d)`; the contraction at `(b, r, s)` is the sum over `d` of the
  products of the operands at `(b, r, d)` and `(b, s, d)`; the column and row layouts at `(b, r, s)` read the operand at
  `(b, r)` and at `(b, s)`; the minimum over the last axis at `(b, r)` is the fold of `min` from +infinity over `s` of the
  operand at `(b, r, s)`. Put together, the step's value at `(b, r)` is `min (a (b, r)) (nearest x y b r)`, and the
  array that starts a run of steps is +infinity everywhere. Both statements are proved for each of the program's two
  kernels, whose step arithmetic is the same.
-/
import proofs.«130966_j6863357739536_1_alg».proof.Proof.Gen.KernelIdeal.Skeleton
import proofs.«130966_j6863357739536_1_alg».proof.Proof.Spec
import proofs.«130966_j6863357739536_1_alg».proof.Proof.LibMaxMinFold
import Idealize.ShloMosaic.Lib.ValueIdx
import Idealize.ShloMosaic.Lib.ValueLayout
import Idealize.ShloMosaic.Lib.Pipeline.Value
import Idealize.ShloMosaic.PureOps.Ideal.Laws

set_option synthInstance.maxSize 4096

noncomputable section

open scoped BigOperators

namespace Cert.Hausdorff.Tile

open Idealize.ShloMosaic Idealize.ShloMosaic.ValueIdx Cert.KernelIdeal Cert.KernelIdeal.Gen

/-! ## The operations that are not elementwise, each read at an index -/

/-- The sum over the coordinate axis of a [8, 512, 64] array, at `(b, r)`: the sum over `d` of the array at
    `(b, r, d)`. -/
theorem rowSum_apply (v : FVec Ideal S8x512x64 .f32) (b : Fin 8) (r : Fin 512) :
    multiReduction .add [2] S8x512 v 0x00000000#32 reduces_S8x512x64_S8x512 (.inl rfl) rfl (ix2 b r)
      = ∑ d : Fin 64, v (ix3 b r d) := by
  refine (Ideal.multiReduction_add_single v _ reduces_S8x512x64_S8x512 _ _ (ix2 b r)).trans ?_
  refine Finset.sum_congr rfl fun d _ => congrArg v ?_
  funext a
  match a with
  | ⟨0, _⟩ => rfl
  | ⟨1, _⟩ => rfl
  | ⟨2, _⟩ => rfl

/-- The minimum over the last axis of a [8, 512, 512] array, from the word of +infinity, at `(b, r)`: the fold of `min`
    from +infinity over `s` of the array at `(b, r, s)`. -/
theorem minRed_apply (v : FVec Ideal S8x512x512 .f32) (b : Fin 8) (r : Fin 512) :
    multiReduction .minimumf [2] S8x512 v 0x7F800000#32 reduces_S8x512x512_S8x512 (.inl rfl) rfl (ix2 b r)
      = (Finset.univ : Finset (Fin 512)).fold min topW (fun s => v (ix3 b r s)) := by
  refine (Cert.MaxMinFold.multiReduction_minimumf_single v _ reduces_S8x512x512_S8x512 _ _ (ix2 b r)).trans ?_
  refine Finset.fold_congr fun s _ => congrArg v ?_
  funext a
  match a with
  | ⟨0, _⟩ => rfl
  | ⟨1, _⟩ => rfl
  | ⟨2, _⟩ => rfl

/-- A [8, 512] array laid along the columns of a [8, 512, 512] array (viewed as [8, 512, 1], then repeated along the
    unit axis) reads, at `(b, r, s)`, the array at `(b, r)`: the two views have the same row-major position
    `512 b + r`. -/
theorem col_apply (v : FVec Ideal S8x512 .f32) (b : Fin 8) (r s : Fin 512) :
    broadcastTo S8x512x512 (shapeCast S8x512x1 v shapeCasts_S8x512_S8x512x1) broadcasts_S8x512x1_S8x512x512 (ix3 b r s)
      = v (ix2 b r) := by
  refine (broadcastTo_apply _ broadcasts_S8x512x1_S8x512x512 (ix3 b r s) (ix3 b r (0 : Fin 1)) fun a => ?_).trans ?_
  · match a with
    | ⟨0, _⟩ => rfl
    | ⟨1, _⟩ => rfl
    | ⟨2, _⟩ => rfl
  · refine shapeCast_apply v shapeCasts_S8x512_S8x512x1 _ _ ?_
    rw [Shape.rowMajor_val_two, Shape.rowMajor_val_three]
    show b.val * 512 + r.val = (b.val * 512 + r.val) * 1 + 0
    omega

/-- A [8, 512] array laid along the rows of a [8, 512, 512] array (viewed as [8, 1, 512], then repeated along the unit
    axis) reads, at `(b, r, s)`, the array at `(b, s)`: the two views have the same row-major position `512 b + s`. -/
theorem row_apply (v : FVec Ideal S8x512 .f32) (b : Fin 8) (r s : Fin 512) :
    broadcastTo S8x512x512 (shapeCast S8x1x512 v shapeCasts_S8x512_S8x1x512) broadcasts_S8x1x512_S8x512x512 (ix3 b r s)
      = v (ix2 b s) := by
  refine (broadcastTo_apply _ broadcasts_S8x1x512_S8x512x512 (ix3 b r s) (ix3 b (0 : Fin 1) s) fun a => ?_).trans ?_
  · match a with
    | ⟨0, _⟩ => rfl
    | ⟨1, _⟩ => rfl
    | ⟨2, _⟩ => rfl
  · refine shapeCast_apply v shapeCasts_S8x512_S8x1x512 _ _ ?_
    rw [Shape.rowMajor_val_two, Shape.rowMajor_val_three]
    show b.val * 512 + s.val = (b.val * 1 + 0) * 512 + s.val
    omega

/-! ## The contraction over the coordinate axis

The contraction pairs batch with batch, keeps the point axis of each operand, and sums over the coordinate axis of both:
at the result index `i` and the contraction coordinate `q`, the left operand is read at `(i 0, i 1, q)` and the right
at `(i 0, i 2, q)`. -/

/-- The left operand's batch coordinate is the result's. -/
theorem lhs_0 (i : S8x512x512.Idx) (q : dot_S8x512x64_S8x512x64_S8x512x512_2_2_1_1_0_0.contr.Idx) :
    (dot_S8x512x64_S8x512x64_S8x512x512_2_2_1_1_0_0.lhsIdx i q 0).val = (i 0).val := by
  unfold DotDims.lhsIdx
  rw [dif_pos (show (0 : Fin S8x512x64.rank) ∈ dot_S8x512x64_S8x512x64_S8x512x512_2_2_1_1_0_0.lhsBatch by decide)]
  rfl
/-- The left operand's point coordinate is the result's first point coordinate. -/
theorem lhs_1 (i : S8x512x512.Idx) (q : dot_S8x512x64_S8x512x64_S8x512x512_2_2_1_1_0_0.contr.Idx) :
    (dot_S8x512x64_S8x512x64_S8x512x512_2_2_1_1_0_0.lhsIdx i q 1).val = (i 1).val := by
  unfold DotDims.lhsIdx
  rw [dif_neg (show ¬(1 : Fin S8x512x64.rank) ∈ dot_S8x512x64_S8x512x64_S8x512x512_2_2_1_1_0_0.lhsBatch by decide), dif_pos (show (1 : Fin S8x512x64.rank) ∈ dot_S8x512x64_S8x512x64_S8x512x512_2_2_1_1_0_0.lhsNonContracting by decide)]
  rfl
/-- The left operand's last coordinate is the contraction coordinate. -/
theorem lhs_2 (i : S8x512x512.Idx) (q : dot_S8x512x64_S8x512x64_S8x512x512_2_2_1_1_0_0.contr.Idx) :
    (dot_S8x512x64_S8x512x64_S8x512x512_2_2_1_1_0_0.lhsIdx i q 2).val = (q ⟨0, by decide⟩).val :=
  dot_S8x512x64_S8x512x64_S8x512x512_2_2_1_1_0_0.lhsIdx_val_of_single rfl i q
/-- The right operand's batch coordinate is the result's. -/
theorem rhs_0 (i : S8x512x512.Idx) (q : dot_S8x512x64_S8x512x64_S8x512x512_2_2_1_1_0_0.contr.Idx) :
    (dot_S8x512x64_S8x512x64_S8x512x512_2_2_1_1_0_0.rhsIdx i q 0).val = (i 0).val := by
  unfold DotDims.rhsIdx
  rw [dif_pos (show (0 : Fin S8x512x64.rank) ∈ dot_S8x512x64_S8x512x64_S8x512x512_2_2_1_1_0_0.rhsBatch by decide)]
  rfl
/-- The right operand's point coordinate is the result's second point coordinate. -/
theorem rhs_1 (i : S8x512x512.Idx) (q : dot_S8x512x64_S8x512x64_S8x512x512_2_2_1_1_0_0.contr.Idx) :
    (dot_S8x512x64_S8x512x64_S8x512x512_2_2_1_1_0_0.rhsIdx i q 1).val = (i 2).val := by
  unfold DotDims.rhsIdx
  rw [dif_neg (show ¬(1 : Fin S8x512x64.rank) ∈ dot_S8x512x64_S8x512x64_S8x512x512_2_2_1_1_0_0.rhsBatch by decide), dif_pos (show (1 : Fin S8x512x64.rank) ∈ dot_S8x512x64_S8x512x64_S8x512x512_2_2_1_1_0_0.rhsNonContracting by decide)]
  rfl
/-- The right operand's last coordinate is the contraction coordinate. -/
theorem rhs_2 (i : S8x512x512.Idx) (q : dot_S8x512x64_S8x512x64_S8x512x512_2_2_1_1_0_0.contr.Idx) :
    (dot_S8x512x64_S8x512x64_S8x512x512_2_2_1_1_0_0.rhsIdx i q 2).val = (q ⟨0, by decide⟩).val :=
  dot_S8x512x64_S8x512x64_S8x512x512_2_2_1_1_0_0.rhsIdx_val_of_single rfl i q

/-- The contraction of two [8, 512, 64] blocks over the coordinate axis, from a zero accumulator, at `(b, r, s)`: the
    inner product `∑ d, x (b, r, d) * y (b, s, d)`. The contraction index has one axis of extent 64, so the sum over it
    is the sum over `Fin 64`. -/
theorem gram_apply (x y : FVec Ideal S8x512x64 .bf16) (b : Fin 8) (r s : Fin 512) :
    matmul dot_S8x512x64_S8x512x64_S8x512x512_2_2_1_1_0_0 none x y (constant S8x512x512 .f32 0x00000000#32) (ix3 b r s)
      = ∑ d : Fin 64, x (ix3 b r d) * y (ix3 b s d) := by
  refine (Ideal.matmul_constant_zero_apply dot_S8x512x64_S8x512x64_S8x512x512_2_2_1_1_0_0 none x y (ix3 b r s)).trans ?_
  rw [← Equiv.sum_comp (contrEquiv1 dot_S8x512x64_S8x512x64_S8x512x512_2_2_1_1_0_0 64 rfl rfl).symm]
  refine Finset.sum_congr rfl fun k _ => ?_
  have hk := contrEquiv1_symm_val dot_S8x512x64_S8x512x64_S8x512x512_2_2_1_1_0_0 64 rfl rfl k
  have el : dot_S8x512x64_S8x512x64_S8x512x512_2_2_1_1_0_0.lhsIdx (ix3 b r s) ((contrEquiv1 dot_S8x512x64_S8x512x64_S8x512x512_2_2_1_1_0_0 64 rfl rfl).symm k) = ix3 b r k := funext fun a => Fin.ext (by
    match a with
    | ⟨0, _⟩ => exact lhs_0 _ _
    | ⟨1, _⟩ => exact lhs_1 _ _
    | ⟨2, _⟩ => exact (lhs_2 _ _).trans hk)
  have er : dot_S8x512x64_S8x512x64_S8x512x512_2_2_1_1_0_0.rhsIdx (ix3 b r s) ((contrEquiv1 dot_S8x512x64_S8x512x64_S8x512x512_2_2_1_1_0_0 64 rfl rfl).symm k) = ix3 b s k := funext fun a => Fin.ext (by
    match a with
    | ⟨0, _⟩ => exact rhs_0 _ _
    | ⟨1, _⟩ => exact rhs_1 _ _
    | ⟨2, _⟩ => exact (rhs_2 _ _).trans hk)
  rw [el, er]

/-! ## The elementwise part -/

/-- The elementwise arithmetic of the step at an index `j`: from the column term `A`, the row term `B` and the inner
    products `G`, the value `sqrt (max ((A j + B j) - 2 * G j) floor)`, the factor and the floor being the two float
    words. Every operation involved acts coordinate by coordinate, so this holds by unfolding. -/
theorem body_apply (A B G : FVec Ideal S8x512x512 .f32) (j : S8x512x512.Idx) :
    sqrt (maximumf (subf (addf A B) (mulf (broadcast S8x512x512 (Scalar.ofBits (F := Ideal) .f32 0x40000000#32)) G))
        (broadcast S8x512x512 (Scalar.ofBits (F := Ideal) .f32 0x2B8CBCCC#32))) j
      = Ideal.sqrt (max ((A j + B j) - twoW * G j) floorW) := rfl

/-! ## The first kernel's two stored values -/

/-- The array that starts a run of steps is +infinity at every `(b, r)`. -/
theorem pay1_apply (b : Fin 8) (r : Fin 512) :
    k0_pay1 (F := Ideal) (ix2 b r) = topW := by
  unfold k0_pay1
  show shapeCast S8x512 (broadcast S8x512 (Scalar.ofBits (F := Ideal) .f32 0x7F800000#32)) shapeCasts_S8x512_S8x512 (ix2 b r) = topW
  rw [shapeCast_self]
  rfl

/-- One step's value at `(b, r)`: the minimum of the running value `a (b, r)` and the distance of point `r` of the block
    `x0` to the nearest point of the block `x1`, in batch `b`. The changes of shape to the same shape are the identity;
    the minimum over the last axis is a fold of `min` from +infinity over `s`; under the fold, the column term is the
    squared norm of point `r` of `x0`, the row term the squared norm of point `s` of `x1`, and the contraction their inner
    product (a widening of the number format changes no value), which is the Gram form of the distance term by
    term. -/
theorem pay2_apply (x0 x1 : Vec Ideal S8x512x64 .bf16) (a : Vec Ideal S8x512 .f32) (b : Fin 8) (r : Fin 512) :
    k0_pay2 (F := Ideal) x0 x1 a (ix2 b r) = min (a (ix2 b r)) (nearest (pts x0) (pts x1) b r) := by
  unfold k0_pay2
  refine (congrFun (shapeCast_self _ shapeCasts_S8x512_S8x512) (ix2 b r)).trans ?_
  rw [shapeCast_self x0 shapeCasts_S8x512x64_S8x512x64, shapeCast_self x1 shapeCasts_S8x512x64_S8x512x64]
  refine (minimumf_apply (φ := .f32) a _ (ix2 b r)).trans ?_
  refine congrArg (min (a (ix2 b r))) ?_
  refine (minRed_apply _ b r).trans ?_
  unfold nearest
  refine Finset.fold_congr fun s _ => ?_
  refine (body_apply _ _ _ (ix3 b r s)).trans ?_
  rw [col_apply, row_apply, gram_apply, rowSum_apply, rowSum_apply]
  rfl

/-! ## The second kernel's two stored values -/

/-- The array that starts a run of steps is +infinity at every `(b, r)`. -/
theorem pay1'_apply (b : Fin 8) (r : Fin 512) :
    k1_pay1 (F := Ideal) (ix2 b r) = topW := by
  unfold k1_pay1
  show shapeCast S8x512 (broadcast S8x512 (Scalar.ofBits (F := Ideal) .f32 0x7F800000#32)) shapeCasts_S8x512_S8x512 (ix2 b r) = topW
  rw [shapeCast_self]
  rfl

/-- One step's value at `(b, r)`: the minimum of the running value `a (b, r)` and the distance of point `r` of the block
    `x0` to the nearest point of the block `x1`, in batch `b`. The changes of shape to the same shape are the identity;
    the minimum over the last axis is a fold of `min` from +infinity over `s`; under the fold, the column term is the
    squared norm of point `r` of `x0`, the row term the squared norm of point `s` of `x1`, and the contraction their inner
    product (a widening of the number format changes no value), which is the Gram form of the distance term by
    term. -/
theorem pay2'_apply (x0 x1 : Vec Ideal S8x512x64 .bf16) (a : Vec Ideal S8x512 .f32) (b : Fin 8) (r : Fin 512) :
    k1_pay2 (F := Ideal) x0 x1 a (ix2 b r) = min (a (ix2 b r)) (nearest (pts x0) (pts x1) b r) := by
  unfold k1_pay2
  refine (congrFun (shapeCast_self _ shapeCasts_S8x512_S8x512) (ix2 b r)).trans ?_
  rw [shapeCast_self x0 shapeCasts_S8x512x64_S8x512x64, shapeCast_self x1 shapeCasts_S8x512x64_S8x512x64]
  refine (minimumf_apply (φ := .f32) a _ (ix2 b r)).trans ?_
  refine congrArg (min (a (ix2 b r))) ?_
  refine (minRed_apply _ b r).trans ?_
  unfold nearest
  refine Finset.fold_congr fun s _ => ?_
  refine (body_apply _ _ _ (ix3 b r s)).trans ?_
  rw [col_apply, row_apply, gram_apply, rowSum_apply, rowSum_apply]
  rfl

end Cert.Hausdorff.Tile

end
-- ==== Proof.TileFold.lean ====
/-
  A fold of `min` over 4096 values, taken tile by tile.

  In a linear order the fold of `min` from a start value `b` over a finite family is the greatest lower bound of `b`
  and the family's terms: `c ≤ fold` exactly when `c ≤ b` and `c` is below every term. A running minimum over tiles
  `0 … j`, started from the word of +infinity, is in the same way the greatest lower bound of that word and the tiles'
  values. So when tile `j` of a family `f` on `Fin 4096` is the fold of `min` over the 512 terms
  `f (512 j + s)`, `s < 512`, the running minimum over the eight tiles `j = 0 … 7` is the fold over the whole family:
  every `m < 4096` is `512 (m / 512) + m % 512` with `m / 512 ≤ 7`, and conversely `512 j + s < 4096` for `j ≤ 7`,
  `s < 512`, so both sides have the same lower bounds. Nothing is asked of the terms: the statement holds at +∞ and −∞.

  The word of +infinity is the top of the extended reals, hence neutral for `min`.
-/
import proofs.«130966_j6863357739536_1_alg».proof.Proof.Spec
import Mathlib.Data.Finset.Fold

noncomputable section

namespace Cert.Hausdorff

open Idealize.ShloMosaic

/-- The float word of +infinity is the top element of the extended reals. -/
theorem topW_eq_top : topW = ⊤ := by
  simp [topW, Ideal.ofBits, Ideal.ieee]

/-- The word of +infinity is neutral for `min`. -/
theorem min_top_left (e : EReal) : min topW e = e := by
  rw [topW_eq_top]
  exact min_eq_right le_top

/-- The running minimum over tiles `0 … j` is the greatest lower bound of the word of +infinity and the values
    `g 0, …, g j`: `c` lies below it exactly when `c` lies below that word and below each `g i`, `i ≤ j`. -/
theorem le_runMin_iff (g : ℕ → EReal) (c : EReal) (j : ℕ) :
    c ≤ runMin g j ↔ c ≤ topW ∧ ∀ i, i ≤ j → c ≤ g i := by
  induction j with
  | zero =>
    simp only [runMin, le_min_iff]
    constructor
    · rintro ⟨h1, h2⟩
      refine ⟨h1, fun i hi => ?_⟩
      obtain rfl : i = 0 := Nat.le_zero.mp hi
      exact h2
    · rintro ⟨h1, h2⟩
      exact ⟨h1, h2 0 le_rfl⟩
  | succ j ih =>
    simp only [runMin, le_min_iff, ih]
    constructor
    · rintro ⟨⟨h1, h2⟩, h3⟩
      refine ⟨h1, fun i hi => ?_⟩
      rcases Nat.lt_or_eq_of_le hi with h | h
      · exact h2 i (Nat.lt_succ_iff.mp h)
      · rw [h]; exact h3
    · rintro ⟨h1, h2⟩
      exact ⟨⟨h1, fun i hi => h2 i (Nat.le_succ_of_le hi)⟩, h2 (j + 1) le_rfl⟩

/-- The running minimum, over the eight tiles `j = 0 … 7`, of the folds of `min` over the 512 terms
    `f (512 j + s)` is the fold of `min` over all 4096 terms of `f`: both are the greatest lower bound of the word of
    +infinity and the terms of `f`, since `(j, s) ↦ 512 j + s` maps `{0 … 7} × {0 … 511}` onto `{0 … 4095}`. -/
theorem runMin_tiles (f : Fin 4096 → EReal) :
    runMin (fun j => (Finset.univ : Finset (Fin 512)).fold min topW
        (fun s => f ⟨(512 * j + s.val) % 4096, Nat.mod_lt _ (by norm_num)⟩)) 7
      = (Finset.univ : Finset (Fin 4096)).fold min topW f := by
  have key : ∀ c : EReal,
      c ≤ runMin (fun j => (Finset.univ : Finset (Fin 512)).fold min topW
        (fun s => f ⟨(512 * j + s.val) % 4096, Nat.mod_lt _ (by norm_num)⟩)) 7
        ↔ c ≤ (Finset.univ : Finset (Fin 4096)).fold min topW f := by
    intro c
    rw [le_runMin_iff, Finset.le_fold_min]
    constructor
    · rintro ⟨h1, h2⟩
      refine ⟨h1, fun m _ => ?_⟩
      have hm4 : m.val < 4096 := m.isLt
      have hj : m.val / 512 ≤ 7 := by omega
      have hs : m.val % 512 < 512 := Nat.mod_lt _ (by norm_num)
      have h3 := ((Finset.le_fold_min _).1 (h2 (m.val / 512) hj)).2 ⟨m.val % 512, hs⟩ (Finset.mem_univ _)
      have hm : (⟨(512 * (m.val / 512) + m.val % 512) % 4096, Nat.mod_lt _ (by norm_num)⟩ : Fin 4096) = m := by
        apply Fin.ext
        show (512 * (m.val / 512) + m.val % 512) % 4096 = m.val
        omega
      exact hm ▸ h3
    · rintro ⟨h1, h2⟩
      exact ⟨h1, fun i _ => (Finset.le_fold_min _).2 ⟨h1, fun s _ => h2 _ (Finset.mem_univ _)⟩⟩
  exact le_antisymm ((key _).mp le_rfl) ((key _).mpr le_rfl)

/-- The distance of point `n` of `x` to the nearest of the 4096 points of `y` is the running minimum, over the eight
    tiles of 512 consecutive points of `y`, of its distance to the nearest point of each tile. -/
theorem nearest_tiles {N : ℕ} (x : Fin 8 → Fin N → Fin 64 → EReal) (y : Fin 8 → Fin 4096 → Fin 64 → EReal)
    (b : Fin 8) (n : Fin N) :
    runMin (fun j => nearest x (tile y j) b n) 7 = nearest x y b n :=
  runMin_tiles (fun m => dist x y b n m)

end Cert.Hausdorff

end
-- ==== Proof.KI.Value.lean ====
/-
  What the program computes at the extended reals. For each pallas_call: a window's block at a grid point is a tile of
  512 consecutive points of its array; by induction along the grid the scratch holds, after position n, the running
  minimum over key tiles 0 … n % 8 of each query point's distance to the tile's nearest key point; at the end of a grid row
  this is the distance to the nearest of all 4096 key points, and it is what the row's last point writes back; the
  write-backs' blocks cover the output array. Then the two conversions before the first pallas_call are the identity on
  the extended reals, the second pallas_call finds both converted arrays untouched, and the result is the sum of the two
  maxima of the two output arrays.
-/
import proofs.«130966_j6863357739536_1_alg».proof.Proof.KI.Run
import proofs.«130966_j6863357739536_1_alg».proof.Proof.TileValue
import proofs.«130966_j6863357739536_1_alg».proof.Proof.TileFold
import Idealize.ShloMosaic.Lib.Pipeline.Value
import Idealize.ShloMosaic.Lib.StableHlo.Run

set_option maxRecDepth 16384

noncomputable section

namespace Cert.KernelIdeal.Rows

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Hausdorff

/-! ## pallas_call 0: blocks as tiles, the running minimum, the output array -/

section Region0

variable (V : (c : Dev nD) → (b : Ref sig .tc) → Buf (Elt Ideal) ((c : Thread nD τ).loc b))

/-- The windows' block indices over the grid, decided: the query window and the output window sit at tile `t / 8`, the
    key window at tile `t % 8`, every other axis at block 0. -/
theorem idx0 : ∀ t : Fin cfg0.N,
    win0_0.index t (0 : Fin 3) = 0 ∧ win0_0.index t (1 : Fin 3) = t.val / 8 ∧ win0_0.index t (2 : Fin 3) = 0
    ∧ win0_1.index t (0 : Fin 3) = 0 ∧ win0_1.index t (1 : Fin 3) = t.val % 8 ∧ win0_1.index t (2 : Fin 3) = 0
    ∧ win0_2.index t (0 : Fin 2) = 0 ∧ win0_2.index t (1 : Fin 2) = t.val / 8 :=
  (by decide +kernel : ∀ t : Fin grid0.N, _)

/-- The query window's block at point `t` is tile `t / 8` of the query array. -/
theorem qblk0 (c : Dev nD) (t : Fin cfg0.N) :
    pts (blk0 V c 0 t : S8x512x64.Idx → EReal) = tile (pts (V c main_v0 : S8x4096x64.Idx → EReal)) (t.val / 8) := by
  have hN : t.val < 64 := lt_of_lt_of_eq t.isLt (show cfg0.N = 64 from N_0)
  obtain ⟨e0, e1, e2, -⟩ := idx0 t
  funext b r d
  show V c main_v0 (((cfg0.win 0).blk t).view.emb (ix3 b r d)) = V c main_v0 (ix3 b ⟨(512 * (t.val / 8) + r.val) % 4096, _⟩ d)
  refine congrArg _ (funext fun a => Fin.ext ?_)
  match a with
  | ⟨0, _⟩ => show win0_0.index t (0 : Fin 3) * 8 + 1 * b.val = b.val; omega
  | ⟨1, _⟩ => show win0_0.index t (1 : Fin 3) * 512 + 1 * r.val = (512 * (t.val / 8) + r.val) % 4096; have := r.isLt; omega
  | ⟨2, _⟩ => show win0_0.index t (2 : Fin 3) * 64 + 1 * d.val = d.val; omega

/-- The key window's block at point `t` is tile `t % 8` of the key array. -/
theorem kblk0 (c : Dev nD) (t : Fin cfg0.N) :
    pts (blk0 V c 1 t : S8x512x64.Idx → EReal) = tile (pts (V c main_v1 : S8x4096x64.Idx → EReal)) (t.val % 8) := by
  obtain ⟨-, -, -, e0, e1, e2, -⟩ := idx0 t
  funext b r d
  show V c main_v1 (((cfg0.win 1).blk t).view.emb (ix3 b r d)) = V c main_v1 (ix3 b ⟨(512 * (t.val % 8) + r.val) % 4096, _⟩ d)
  refine congrArg _ (funext fun a => Fin.ext ?_)
  match a with
  | ⟨0, _⟩ => show win0_1.index t (0 : Fin 3) * 8 + 1 * b.val = b.val; omega
  | ⟨1, _⟩ => show win0_1.index t (1 : Fin 3) * 512 + 1 * r.val = (512 * (t.val % 8) + r.val) % 4096; have := r.isLt; omega
  | ⟨2, _⟩ => show win0_1.index t (2 : Fin 3) * 64 + 1 * d.val = d.val; omega

/-- After position `n` the scratch holds, for each query point of tile `n / 8`, the running minimum over key tiles
    `0 … n % 8` of its distance to the nearest key point of the tile. -/
theorem acc0_at (c : Dev nD) : ∀ (n : ℕ) (hn : n < cfg0.N) (b : Fin 8) (r : Fin 512),
    acc0 V c n hn (ix2 b r)
      = runMin (fun j => nearest (tile (pts (V c main_v0 : S8x4096x64.Idx → EReal)) (n / 8)) (tile (pts (V c main_v1 : S8x4096x64.Idx → EReal)) j) b r) (n % 8) := by
  intro n
  induction n with
  | zero =>
    intro hn b r
    rw [acc0_first V c ⟨0, hn⟩ rfl]
    refine (Tile.pay2_apply _ _ _ b r).trans ?_
    rw [Tile.pay1_apply, qblk0 V c ⟨0, hn⟩, kblk0 V c ⟨0, hn⟩]
    rfl
  | succ n ih =>
    intro hn b r
    by_cases h : (n + 1) % 8 = 0
    · rw [acc0_first V c ⟨n + 1, hn⟩ h]
      refine (Tile.pay2_apply _ _ _ b r).trans ?_
      rw [Tile.pay1_apply, qblk0 V c ⟨n + 1, hn⟩, kblk0 V c ⟨n + 1, hn⟩]
      show min topW (nearest _ (tile _ ((n + 1) % 8)) b r) = runMin _ ((n + 1) % 8)
      rw [h]; rfl
    · rw [acc0_next V c ⟨n + 1, hn⟩ h]
      refine (Tile.pay2_apply _ _ _ b r).trans ?_
      rw [qblk0 V c ⟨n + 1, hn⟩, kblk0 V c ⟨n + 1, hn⟩]
      show min (acc0 V c n _ (ix2 b r)) (nearest (tile _ ((n + 1) / 8)) (tile _ ((n + 1) % 8)) b r) = runMin _ ((n + 1) % 8)
      rw [ih (Nat.lt_of_succ_lt hn) b r]
      have e1 : (n + 1) / 8 = n / 8 := by omega
      have e2 : (n + 1) % 8 = n % 8 + 1 := by omega
      rw [e1, e2]; rfl

/-- What the output array ends holding: at (batch `b`, query point `n`) the distance of the point to the nearest key
    point. -/
def out0 (X Y : S8x4096x64.Idx → EReal) : S8x4096.Idx → EReal :=
  fun i => nearest (pts X) (pts Y) ⟨(i 0).val, idx2_lt0 i⟩ ⟨(i 1).val, idx2_lt1 i⟩

/-- A point of the grid row's end writes back its block of that array. -/
theorem flushed0_eq (c : Dev nD) (t : Fin cfg0.N) (hf : (cfg0.win 2).flush t = true) :
    (dat0 V c).flushed 2 t = ((cfg0.win 2).blk t).view.read (Elt Ideal) (out0 (V c main_v0) (V c main_v1)) := by
  have hN : t.val < 64 := lt_of_lt_of_eq t.isLt (show cfg0.N = 64 from N_0)
  have h7 : t.val % 8 = 7 := (flush0_2 t).mp hf
  obtain ⟨-, -, -, -, -, -, e0, e1⟩ := idx0 t
  show (cfg0.win 2).cut (grid0.coords t) ((dat0 V c).after 2 t) = _
  rw [after0_2]
  funext y
  obtain ⟨b, r, rfl⟩ : ∃ (b : Fin 8) (r : Fin 512), y = ix2 b r := ⟨y 0, y 1, eq_ix2 y⟩
  show acc0 V c t.val t.isLt (ix2 b r) = out0 (V c main_v0) (V c main_v1) (((cfg0.win 2).blk t).view.emb (ix2 b r))
  rw [acc0_at V c t.val t.isLt b r, h7, nearest_tiles]
  unfold out0
  have hb : (⟨((((cfg0.win 2).blk t).view.emb (ix2 b r)) 0).val, idx2_lt0 _⟩ : Fin 8) = b := Fin.ext (by
    show win0_2.index t (0 : Fin 2) * 8 + 1 * b.val = b.val; omega)
  have hr : (⟨((((cfg0.win 2).blk t).view.emb (ix2 b r)) 1).val, idx2_lt1 _⟩ : Fin 4096) = ⟨(512 * (t.val / 8) + r.val) % 4096, Nat.mod_lt _ (by norm_num)⟩ := Fin.ext (by
    show win0_2.index t (1 : Fin 2) * 512 + 1 * r.val = (512 * (t.val / 8) + r.val) % 4096; have := r.isLt; omega)
  rw [hb, hr]
  rfl

/-- An index of the output array is in point `t`'s block iff each coordinate is in the block's range. -/
theorem mem_blk0 (t : Fin cfg0.N) (i : S8x4096.Idx) :
    i ∈ ((cfg0.win 2).blk t).view.set ↔ ∀ a : Fin 2, win0_2.index t a * S8x512.size a ≤ (i a).val ∧ (i a).val < win0_2.index t a * S8x512.size a + S8x512.size a := by
  show i ∈ ((View.whole main_v2).slice (win0_2.rect t)).set ↔ _
  rw [View.set_slice_whole, Rect.mem_set_unit]
  exact Iff.rfl

/-- Every index of the output array is in the block of the last point of its grid row. -/
theorem cover0 (i : S8x4096.Idx) : ∃ t : Fin cfg0.N, (cfg0.win 2).flush t = true ∧ i ∈ ((cfg0.win 2).blk t).view.set := by
  have hi0 : (i 0).val < 8 := idx2_lt0 i
  have hi1 : (i 1).val < 4096 := idx2_lt1 i
  have hlt : 8 * ((i 1).val / 512) + 7 < cfg0.N := by rw [show cfg0.N = 64 from N_0]; omega
  refine ⟨⟨8 * ((i 1).val / 512) + 7, hlt⟩, (flush0_2 _).mpr (by show (8 * ((i 1).val / 512) + 7) % 8 = 7; omega), ?_⟩
  obtain ⟨-, -, -, -, -, -, e0, e1⟩ := idx0 ⟨8 * ((i 1).val / 512) + 7, hlt⟩
  rw [mem_blk0]
  intro a
  match a with
  | ⟨0, _⟩ => show win0_2.index _ (0 : Fin 2) * 8 ≤ (i 0).val ∧ (i 0).val < win0_2.index _ (0 : Fin 2) * 8 + 8; rw [e0]; omega
  | ⟨1, _⟩ => show win0_2.index _ (1 : Fin 2) * 512 ≤ (i 1).val ∧ (i 1).val < win0_2.index _ (1 : Fin 2) * 512 + 512; rw [e1]; show (8 * ((i 1).val / 512) + 7) / 8 * 512 ≤ (i 1).val ∧ (i 1).val < (8 * ((i 1).val / 512) + 7) / 8 * 512 + 512; omega

/-- The output array after the pallas_call. -/
theorem final0 (c : Dev nD) : (dat0 V c).arrAt 2 cfg0.N = out0 (V c main_v0) (V c main_v1) :=
  (dat0 V c).arrAt_eq_of_cover 2 (out0 (V c main_v0) (V c main_v1)) (fun t hf => flushed0_eq V c t hf) (cover0)

end Region0

/-! ## pallas_call 1: blocks as tiles, the running minimum, the output array -/

section Region1

variable (V : (c : Dev nD) → (b : Ref sig .tc) → Buf (Elt Ideal) ((c : Thread nD τ).loc b))

/-- The windows' block indices over the grid, decided: the query window and the output window sit at tile `t / 8`, the
    key window at tile `t % 8`, every other axis at block 0. -/
theorem idx1 : ∀ t : Fin cfg1.N,
    win1_0.index t (0 : Fin 3) = 0 ∧ win1_0.index t (1 : Fin 3) = t.val / 8 ∧ win1_0.index t (2 : Fin 3) = 0
    ∧ win1_1.index t (0 : Fin 3) = 0 ∧ win1_1.index t (1 : Fin 3) = t.val % 8 ∧ win1_1.index t (2 : Fin 3) = 0
    ∧ win1_2.index t (0 : Fin 2) = 0 ∧ win1_2.index t (1 : Fin 2) = t.val / 8 :=
  (by decide +kernel : ∀ t : Fin grid1.N, _)

/-- The query window's block at point `t` is tile `t / 8` of the query array. -/
theorem qblk1 (c : Dev nD) (t : Fin cfg1.N) :
    pts (blk1 V c 0 t : S8x512x64.Idx → EReal) = tile (pts (V c main_v1 : S8x4096x64.Idx → EReal)) (t.val / 8) := by
  have hN : t.val < 64 := lt_of_lt_of_eq t.isLt (show cfg1.N = 64 from N_1)
  obtain ⟨e0, e1, e2, -⟩ := idx1 t
  funext b r d
  show V c main_v1 (((cfg1.win 0).blk t).view.emb (ix3 b r d)) = V c main_v1 (ix3 b ⟨(512 * (t.val / 8) + r.val) % 4096, _⟩ d)
  refine congrArg _ (funext fun a => Fin.ext ?_)
  match a with
  | ⟨0, _⟩ => show win1_0.index t (0 : Fin 3) * 8 + 1 * b.val = b.val; omega
  | ⟨1, _⟩ => show win1_0.index t (1 : Fin 3) * 512 + 1 * r.val = (512 * (t.val / 8) + r.val) % 4096; have := r.isLt; omega
  | ⟨2, _⟩ => show win1_0.index t (2 : Fin 3) * 64 + 1 * d.val = d.val; omega

/-- The key window's block at point `t` is tile `t % 8` of the key array. -/
theorem kblk1 (c : Dev nD) (t : Fin cfg1.N) :
    pts (blk1 V c 1 t : S8x512x64.Idx → EReal) = tile (pts (V c main_v0 : S8x4096x64.Idx → EReal)) (t.val % 8) := by
  obtain ⟨-, -, -, e0, e1, e2, -⟩ := idx1 t
  funext b r d
  show V c main_v0 (((cfg1.win 1).blk t).view.emb (ix3 b r d)) = V c main_v0 (ix3 b ⟨(512 * (t.val % 8) + r.val) % 4096, _⟩ d)
  refine congrArg _ (funext fun a => Fin.ext ?_)
  match a with
  | ⟨0, _⟩ => show win1_1.index t (0 : Fin 3) * 8 + 1 * b.val = b.val; omega
  | ⟨1, _⟩ => show win1_1.index t (1 : Fin 3) * 512 + 1 * r.val = (512 * (t.val % 8) + r.val) % 4096; have := r.isLt; omega
  | ⟨2, _⟩ => show win1_1.index t (2 : Fin 3) * 64 + 1 * d.val = d.val; omega

/-- After position `n` the scratch holds, for each query point of tile `n / 8`, the running minimum over key tiles
    `0 … n % 8` of its distance to the nearest key point of the tile. -/
theorem acc1_at (c : Dev nD) : ∀ (n : ℕ) (hn : n < cfg1.N) (b : Fin 8) (r : Fin 512),
    acc1 V c n hn (ix2 b r)
      = runMin (fun j => nearest (tile (pts (V c main_v1 : S8x4096x64.Idx → EReal)) (n / 8)) (tile (pts (V c main_v0 : S8x4096x64.Idx → EReal)) j) b r) (n % 8) := by
  intro n
  induction n with
  | zero =>
    intro hn b r
    rw [acc1_first V c ⟨0, hn⟩ rfl]
    refine (Tile.pay2'_apply _ _ _ b r).trans ?_
    rw [Tile.pay1'_apply, qblk1 V c ⟨0, hn⟩, kblk1 V c ⟨0, hn⟩]
    rfl
  | succ n ih =>
    intro hn b r
    by_cases h : (n + 1) % 8 = 0
    · rw [acc1_first V c ⟨n + 1, hn⟩ h]
      refine (Tile.pay2'_apply _ _ _ b r).trans ?_
      rw [Tile.pay1'_apply, qblk1 V c ⟨n + 1, hn⟩, kblk1 V c ⟨n + 1, hn⟩]
      show min topW (nearest _ (tile _ ((n + 1) % 8)) b r) = runMin _ ((n + 1) % 8)
      rw [h]; rfl
    · rw [acc1_next V c ⟨n + 1, hn⟩ h]
      refine (Tile.pay2'_apply _ _ _ b r).trans ?_
      rw [qblk1 V c ⟨n + 1, hn⟩, kblk1 V c ⟨n + 1, hn⟩]
      show min (acc1 V c n _ (ix2 b r)) (nearest (tile _ ((n + 1) / 8)) (tile _ ((n + 1) % 8)) b r) = runMin _ ((n + 1) % 8)
      rw [ih (Nat.lt_of_succ_lt hn) b r]
      have e1 : (n + 1) / 8 = n / 8 := by omega
      have e2 : (n + 1) % 8 = n % 8 + 1 := by omega
      rw [e1, e2]; rfl

/-- What the output array ends holding: at (batch `b`, query point `n`) the distance of the point to the nearest key
    point. -/
def out1 (X Y : S8x4096x64.Idx → EReal) : S8x4096.Idx → EReal :=
  fun i => nearest (pts X) (pts Y) ⟨(i 0).val, idx2_lt0 i⟩ ⟨(i 1).val, idx2_lt1 i⟩

/-- A point of the grid row's end writes back its block of that array. -/
theorem flushed1_eq (c : Dev nD) (t : Fin cfg1.N) (hf : (cfg1.win 2).flush t = true) :
    (dat1 V c).flushed 2 t = ((cfg1.win 2).blk t).view.read (Elt Ideal) (out1 (V c main_v1) (V c main_v0)) := by
  have hN : t.val < 64 := lt_of_lt_of_eq t.isLt (show cfg1.N = 64 from N_1)
  have h7 : t.val % 8 = 7 := (flush1_2 t).mp hf
  obtain ⟨-, -, -, -, -, -, e0, e1⟩ := idx1 t
  show (cfg1.win 2).cut (grid1.coords t) ((dat1 V c).after 2 t) = _
  rw [after1_2]
  funext y
  obtain ⟨b, r, rfl⟩ : ∃ (b : Fin 8) (r : Fin 512), y = ix2 b r := ⟨y 0, y 1, eq_ix2 y⟩
  show acc1 V c t.val t.isLt (ix2 b r) = out1 (V c main_v1) (V c main_v0) (((cfg1.win 2).blk t).view.emb (ix2 b r))
  rw [acc1_at V c t.val t.isLt b r, h7, nearest_tiles]
  unfold out1
  have hb : (⟨((((cfg1.win 2).blk t).view.emb (ix2 b r)) 0).val, idx2_lt0 _⟩ : Fin 8) = b := Fin.ext (by
    show win1_2.index t (0 : Fin 2) * 8 + 1 * b.val = b.val; omega)
  have hr : (⟨((((cfg1.win 2).blk t).view.emb (ix2 b r)) 1).val, idx2_lt1 _⟩ : Fin 4096) = ⟨(512 * (t.val / 8) + r.val) % 4096, Nat.mod_lt _ (by norm_num)⟩ := Fin.ext (by
    show win1_2.index t (1 : Fin 2) * 512 + 1 * r.val = (512 * (t.val / 8) + r.val) % 4096; have := r.isLt; omega)
  rw [hb, hr]
  rfl

/-- An index of the output array is in point `t`'s block iff each coordinate is in the block's range. -/
theorem mem_blk1 (t : Fin cfg1.N) (i : S8x4096.Idx) :
    i ∈ ((cfg1.win 2).blk t).view.set ↔ ∀ a : Fin 2, win1_2.index t a * S8x512.size a ≤ (i a).val ∧ (i a).val < win1_2.index t a * S8x512.size a + S8x512.size a := by
  show i ∈ ((View.whole main_v3).slice (win1_2.rect t)).set ↔ _
  rw [View.set_slice_whole, Rect.mem_set_unit]
  exact Iff.rfl

/-- Every index of the output array is in the block of the last point of its grid row. -/
theorem cover1 (i : S8x4096.Idx) : ∃ t : Fin cfg1.N, (cfg1.win 2).flush t = true ∧ i ∈ ((cfg1.win 2).blk t).view.set := by
  have hi0 : (i 0).val < 8 := idx2_lt0 i
  have hi1 : (i 1).val < 4096 := idx2_lt1 i
  have hlt : 8 * ((i 1).val / 512) + 7 < cfg1.N := by rw [show cfg1.N = 64 from N_1]; omega
  refine ⟨⟨8 * ((i 1).val / 512) + 7, hlt⟩, (flush1_2 _).mpr (by show (8 * ((i 1).val / 512) + 7) % 8 = 7; omega), ?_⟩
  obtain ⟨-, -, -, -, -, -, e0, e1⟩ := idx1 ⟨8 * ((i 1).val / 512) + 7, hlt⟩
  rw [mem_blk1]
  intro a
  match a with
  | ⟨0, _⟩ => show win1_2.index _ (0 : Fin 2) * 8 ≤ (i 0).val ∧ (i 0).val < win1_2.index _ (0 : Fin 2) * 8 + 8; rw [e0]; omega
  | ⟨1, _⟩ => show win1_2.index _ (1 : Fin 2) * 512 ≤ (i 1).val ∧ (i 1).val < win1_2.index _ (1 : Fin 2) * 512 + 512; rw [e1]; show (8 * ((i 1).val / 512) + 7) / 8 * 512 ≤ (i 1).val ∧ (i 1).val < (8 * ((i 1).val / 512) + 7) / 8 * 512 + 512; omega

/-- The output array after the pallas_call. -/
theorem final1 (c : Dev nD) : (dat1 V c).arrAt 2 cfg1.N = out1 (V c main_v1) (V c main_v0) :=
  (dat1 V c).arrAt_eq_of_cover 2 (out1 (V c main_v1) (V c main_v0)) (fun t hf => flushed1_eq V c t hf) (cover1)

end Region1

end Cert.KernelIdeal.Rows

end
-- ==== Proof.KI.Result.lean ====
/-
  The program's result at the extended reals, as one function of its two argument arrays: the maximum over all batches
  and points of the first set of the distance to the nearest point of the second, plus the same with the two sets
  exchanged — each maximum being the closing reduction of one pallas_call's output array.
-/
import proofs.«130966_j6863357739536_1_alg».proof.Proof.KI.Value

set_option maxRecDepth 16384

noncomputable section

namespace Cert.KernelIdeal.Rows

open Idealize.ShloMosaic Idealize.ShloMosaic.TcCoe Idealize.ShloMosaic.ValueIdx Idealize.ShloMosaic.StableHlo
open Idealize.SL Idealize.SL.Sem
open Idealize.ShloMosaic.Pipeline (Dat Cfg Window)
open Cert.KernelIdeal Cert.KernelIdeal.Gen Cert.Hausdorff

variable (m : (ℓ : Loc nD τ sig) → Buf (Elt Ideal) ℓ) (ρ : Dev nD → PrngReg)

/-- The closing reductions of two [8, 4096] arrays: the sum of their maxima (each taken from -infinity). -/
def closing (A B : S8x4096.Idx → EReal) : S_.Idx → EReal :=
  addf (F := Ideal) (Host.reduce (FloatOps.maximumf (F := Ideal) (φ := .f32)) A (constant (F := Ideal) S_ .f32 0xFF800000#32) reducesTo_S8x4096_S_d0_1 h_S_)
    (Host.reduce (FloatOps.maximumf (F := Ideal) (φ := .f32)) B (constant (F := Ideal) S_ .f32 0xFF800000#32) reducesTo_S8x4096_S_d0_1 h_S_)

/-- The program's result: the closing reductions of the two nearest-point arrays, the second with the sets exchanged. -/
def total (X Y : S8x4096x64.Idx → EReal) : S_.Idx → EReal := closing (out0 X Y) (out1 Y X)

/-- At the end the result buffer holds the closing reductions of the two output arrays as the pallas_calls left them. -/
theorem end_v6 (c : Dev nD) :
    B4 m c (Proc.devRef .tc main_v6) = closing (B3 m c (Proc.devRef .tc main_v2)) (B3 m c (Proc.devRef .tc main_v3)) := by
  show StableHlo.after hostOps2 (B3 m c) (Proc.devRef .tc main_v6) = _
  generalize B3 m c = W
  after_results
  rfl

/-- The conversions before the first pallas_call are the identity on the extended reals. -/
theorem conv0 (c : Dev nD) : (E1 m c main_v0 : S8x4096x64.Idx → EReal) = (m ((c : Thread nD τ).loc main_arg0) : S8x4096x64.Idx → EReal) := by
  show StableHlo.after hostOps0 (B0 m c) (Proc.devRef .tc main_v0) = _
  after_results
  rfl
theorem conv1 (c : Dev nD) : (E1 m c main_v1 : S8x4096x64.Idx → EReal) = (m ((c : Thread nD τ).loc main_arg1) : S8x4096x64.Idx → EReal) := by
  show StableHlo.after hostOps0 (B0 m c) (Proc.devRef .tc main_v1) = _
  after_results
  rfl

/-- The first pallas_call leaves its two input arrays as it found them. -/
theorem kept_v0 (c : Dev nD) : E2 m c main_v0 = E1 m c main_v0 :=
  (B2_arr m c 0).trans (((dat0 (E1 m) c).arrAt_in 0 rfl _).trans (A_eq0 (E1 m) c 0))
theorem kept_v1 (c : Dev nD) : E2 m c main_v1 = E1 m c main_v1 :=
  (B2_arr m c 1).trans (((dat0 (E1 m) c).arrAt_in 1 rfl _).trans (A_eq0 (E1 m) c 1))

/-- The first output array at the end. -/
theorem end_v2 (c : Dev nD) :
    B3 m c (Proc.devRef .tc main_v2) = out0 (m ((c : Thread nD τ).loc main_arg0)) (m ((c : Thread nD τ).loc main_arg1)) :=
  calc B3 m c (Proc.devRef .tc main_v2)
    _ = B2 m c (Proc.devRef .tc main_v2) := B3_other m c main_v2 (by decide)
    _ = (dat0 (E1 m) c).arrAt 2 cfg0.N := B2_arr m c 2
    _ = out0 (E1 m c main_v0) (E1 m c main_v1) := final0 (E1 m) c
    _ = _ := by rw [conv0, conv1]

/-- The second output array at the end. -/
theorem end_v3 (c : Dev nD) :
    B3 m c (Proc.devRef .tc main_v3) = out1 (m ((c : Thread nD τ).loc main_arg1)) (m ((c : Thread nD τ).loc main_arg0)) :=
  calc B3 m c (Proc.devRef .tc main_v3)
    _ = (dat1 (E2 m) c).arrAt 2 cfg1.N := B3_arr m c 2
    _ = out1 (E2 m c main_v1) (E2 m c main_v0) := final1 (E2 m) c
    _ = _ := by rw [kept_v0, kept_v1, conv0, conv1]

/-- The run of the program at the extended reals: it terminates, nothing faulting, with the result at `total` of the
    argument arrays and the arguments as launched. -/
theorem run_value : θ_run defs (onTc (τ := τ) (main (F := Ideal))) ⟨m, fun _ => 0, ρ⟩ (fun r => ∀ c : Dev nD,
      r.2.mem ((c.tc : Thread nD τ).loc main_v6) = total (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v6 (by decide))).trans ((end_v6 m c).trans (by rw [end_v2, end_v3]; rfl)),
     (h c _ (mem_uc main_arg0 (by decide))).trans (B4_arg0 m c),
     (h c _ (mem_uc main_arg1 (by decide))).trans (B4_arg1 m c)⟩) (run_all m ρ)

end Cert.KernelIdeal.Rows

end
-- ==== Proof.RefValue.lean ====
/-
  The reference program read at an index, at the extended reals.

  The reference computes, for two batches of point sets `X`, `Y` (arrays of shape [8, 4096, 64]: batch, point, coordinate),
  the array of all pairwise distances through the Gram form, and then its minima along each of its two point axes.
  Stage by stage, at batch `b`, point `n` of `X` and point `m` of `Y`:

    * the two squared norms are `0 + ∑ d, X b n d * X b n d` and `0 + ∑ d, Y b m d * Y b m d` (the sum's start value is
      the float word of zero, whose value is `0`, so it drops: `0 + s = s`), carried to the [8, 4096, 4096] array by two
      broadcasts each — the first inserts a unit axis, the second stretches it — so the entry at `(b, n, m)` reads the
      norm of `X` at `(b, n)` and the norm of `Y` at `(b, m)`;
    * the contraction over the coordinate axis is `∑ d, X b n d * Y b m d`;
    * the factor two and the floor are constants broadcast from a scalar: every entry is the constant's word;
    * the entry of the distance array is `sqrt (max ((|X_n|² + |Y_m|²) − 2 · ⟨X_n, Y_m⟩) floor)`, which is `dist`.

  A reduction by `min` over one axis is, at a result index, the fold of `min` from the start value (the word of +∞) over
  that axis's coordinates, of the operand at the result index with the coordinate inserted on the dropped axis.
  Dropping the last axis, the index `(b, n)` with `m` inserted is `(b, n, m)`: the fold is `nearest`. Dropping the
  middle axis, the index `(b, m)` with `n` inserted is `(b, n, m)`: the fold is `nearestTo`.

  Last, the Gram form is symmetric: `|x_n|² + |y_m|² = |y_m|² + |x_n|²` and `⟨x_n, y_m⟩ = ⟨y_m, x_n⟩` term by term,
  because addition and multiplication of extended reals commute (no finiteness is needed). Hence the distance from
  `x_n` to `y_m` is the distance from `y_m` to `x_n`, and the nearest-point distance of `y`'s point `m` among `x`'s
  points, computed with the roles of the two sets exchanged, is `nearestTo x y b m`.
-/
import proofs.«130966_j6863357739536_1_alg».proof.Proof.Gen.ReferenceIdeal.Read
import proofs.«130966_j6863357739536_1_alg».proof.Proof.Spec
import proofs.«130966_j6863357739536_1_alg».proof.Proof.LibMaxMinFold

noncomputable section

open scoped BigOperators

namespace Cert.Hausdorff.Ref

open Cert.ReferenceIdeal Cert.ReferenceIdeal.Gen Cert.ReferenceIdeal.Read Idealize.ShloMosaic Idealize.ShloMosaic.ValueIdx Cert.Hausdorff

/-- An input array of the reference at the extended reals: a function of an index of shape [8, 4096, 64]. -/
abbrev Arr : Type := (⟨S8x4096x64, .f32⟩ : BufTy).Contents (Elt Ideal)

/-! ## The stages below the distance array -/

/-- The squared norms of the first argument: the sum over the 64 coordinates of the squares, the zero start value
    dropped. -/
theorem v1_at (X : Arr) (b : Fin 8) (n : Fin 4096) :
    val_main_v1 (F := Ideal) X (ix2 b n) = sqn (pts X) b n := by
  rw [val_main_v1_apply, val_main_cst_apply]
  refine (congrArg (· + _) Ideal.ofBits_zero_f32).trans ?_
  rw [zero_add]
  refine Finset.sum_congr rfl fun d _ => ?_
  rw [val_main_v0_apply]
  have e : idx_main_v1 (ix2 b n) d = ix3 b n d :=
    funext fun a => Fin.ext (by match a with | ⟨0, _⟩ => rfl | ⟨1, _⟩ => rfl | ⟨2, _⟩ => rfl)
  rw [e]
  rfl

/-- The squared norms of the second argument, likewise. -/
theorem v3_at (Y : Arr) (b : Fin 8) (m : Fin 4096) :
    val_main_v3 (F := Ideal) Y (ix2 b m) = sqn (pts Y) b m := by
  rw [val_main_v3_apply, val_main_cst_0_apply]
  refine (congrArg (· + _) Ideal.ofBits_zero_f32).trans ?_
  rw [zero_add]
  refine Finset.sum_congr rfl fun d _ => ?_
  rw [val_main_v2_apply]
  have e : idx_main_v3 (ix2 b m) d = ix3 b m d :=
    funext fun a => Fin.ext (by match a with | ⟨0, _⟩ => rfl | ⟨1, _⟩ => rfl | ⟨2, _⟩ => rfl)
  rw [e]
  rfl

/-- The contraction over the coordinate axis: entry `(b, n, m)` is the inner product of point `n` of the first
    argument with point `m` of the second. -/
theorem v4_at (X Y : Arr) (b : Fin 8) (n m : Fin 4096) :
    val_main_v4 (F := Ideal) X Y (ix3 b n m) = dot (pts X) (pts Y) b n m := by
  rw [val_main_v4_apply]
  refine Finset.sum_congr rfl fun d _ => ?_
  have el : lidx_main_v4 (ix3 b n m) d = ix3 b n d :=
    funext fun a => Fin.ext (by match a with | ⟨0, _⟩ => rfl | ⟨1, _⟩ => rfl | ⟨2, _⟩ => rfl)
  have er : ridx_main_v4 (ix3 b n m) d = ix3 b m d :=
    funext fun a => Fin.ext (by match a with | ⟨0, _⟩ => rfl | ⟨1, _⟩ => rfl | ⟨2, _⟩ => rfl)
  rw [el, er]
  rfl

/-- The first argument's squared norms broadcast along the last axis: entry `(b, n, m)` reads the norm at `(b, n)`. -/
theorem v7_at (X : Arr) (b : Fin 8) (n m : Fin 4096) :
    val_main_v7 (F := Ideal) X (ix3 b n m) = sqn (pts X) b n := by
  rw [val_main_v7_apply, val_main_v5_apply]
  have e : idx_main_v5 (idx_main_v7 (ix3 b n m)) = ix2 b n :=
    funext fun a => Fin.ext (by match a with | ⟨0, _⟩ => rfl | ⟨1, _⟩ => rfl)
  rw [e]
  exact v1_at X b n

/-- The second argument's squared norms broadcast along the middle axis: entry `(b, n, m)` reads the norm at `(b, m)`. -/
theorem v8_at (Y : Arr) (b : Fin 8) (n m : Fin 4096) :
    val_main_v8 (F := Ideal) Y (ix3 b n m) = sqn (pts Y) b m := by
  rw [val_main_v8_apply, val_main_v6_apply]
  have e : idx_main_v6 (idx_main_v8 (ix3 b n m)) = ix2 b m :=
    funext fun a => Fin.ext (by match a with | ⟨0, _⟩ => rfl | ⟨1, _⟩ => rfl)
  rw [e]
  exact v3_at Y b m

/-- The factor two, broadcast from a scalar: every entry is its word. -/
theorem v10_at (i : S8x4096x4096.Idx) : val_main_v10 (F := Ideal) i = twoW := by
  rw [val_main_v10_apply, val_main_cst_1_apply]
  rfl

/-- The floor, broadcast from a scalar: every entry is its word. -/
theorem v13_at (i : S8x4096x4096.Idx) : val_main_v13 (F := Ideal) i = floorW := by
  rw [val_main_v13_apply, val_main_cst_2_apply]
  rfl

/-! ## The distance array and its two minima -/

/-- Entry `(b, n, m)` of the reference's distance array is the Gram-form distance of point `n` of the first argument to
    point `m` of the second: `sqrt (max ((|X_n|² + |Y_m|²) − 2 · ⟨X_n, Y_m⟩) floor)`. -/
theorem v15_apply (X Y : (⟨Cert.ReferenceIdeal.S8x4096x64, .f32⟩ : BufTy).Contents (Elt Ideal))
    (b : Fin 8) (n m : Fin 4096) :
    Cert.ReferenceIdeal.Read.val_main_v15 (F := Ideal) X Y (ix3 b n m) = Cert.Hausdorff.dist (pts X) (pts Y) b n m := by
  rw [val_main_v15_apply, val_main_v14_apply, val_main_v12_apply, val_main_v9_apply, val_main_v11_apply,
    v7_at, v8_at, v10_at, v13_at, v4_at]
  rfl

/-- Dropping the last axis of [8, 4096, 4096]: the index `(b, n)` with `m` inserted on the dropped axis is `(b, n, m)`. -/
theorem lift_d2 (h : S8x4096x4096.Reduces [2] S8x4096) (b : Fin 8) (n : Fin 4096) (m : Fin 4096) :
    h.lift (ix2 b n) m = ix3 b n m :=
  funext fun a => Fin.ext (by match a with | ⟨0, _⟩ => rfl | ⟨1, _⟩ => rfl | ⟨2, _⟩ => rfl)

/-- Dropping the middle axis of [8, 4096, 4096]: the index `(b, m)` with `n` inserted on the dropped axis is
    `(b, n, m)`. -/
theorem lift_d1 (h : S8x4096x4096.Reduces [1] S8x4096) (b : Fin 8) (m : Fin 4096) (n : Fin 4096) :
    h.lift (ix2 b m) n = ix3 b n m :=
  funext fun a => Fin.ext (by match a with | ⟨0, _⟩ => rfl | ⟨1, _⟩ => rfl | ⟨2, _⟩ => rfl)

/-- The minimum of the distance array along its last axis, at `(b, n)`: the fold of `min` from +∞ over the points `m` of
    the second argument of the distance of point `n` to point `m` — the distance of point `n` to the nearest point of the
    second set. -/
theorem v16_apply (X Y : (⟨Cert.ReferenceIdeal.S8x4096x64, .f32⟩ : BufTy).Contents (Elt Ideal))
    (b : Fin 8) (n : Fin 4096) :
    Cert.ReferenceIdeal.Read.val_main_v16 (F := Ideal) X Y (ix2 b n) = Cert.Hausdorff.nearest (pts X) (pts Y) b n := by
  have h : S8x4096x4096.Reduces [2] S8x4096 := by decide
  unfold val_main_v16
  refine (Cert.MaxMinFold.hostReduce_minimumf_single (φ := .f32) (val_main_v15 (F := Ideal) X Y) (val_main_cst_3 (F := Ideal))
    reducesTo_S8x4096x4096_S8x4096_d2 h h_S_ (ix2 b n)).trans ?_
  unfold nearest
  refine Finset.fold_congr fun m _ => ?_
  show val_main_v15 (F := Ideal) X Y (h.lift (ix2 b n) m) = _
  rw [lift_d2 h b n m]
  exact v15_apply X Y b n m

/-- The minimum of the distance array along its middle axis, at `(b, m)`: the fold of `min` from +∞ over the points `n`
    of the first argument of the distance of point `n` to point `m` — the distance of point `m` of the second set to the
    nearest point of the first. -/
theorem v18_apply (X Y : (⟨Cert.ReferenceIdeal.S8x4096x64, .f32⟩ : BufTy).Contents (Elt Ideal))
    (b : Fin 8) (m : Fin 4096) :
    Cert.ReferenceIdeal.Read.val_main_v18 (F := Ideal) X Y (ix2 b m) = Cert.Hausdorff.nearestTo (pts X) (pts Y) b m := by
  have h : S8x4096x4096.Reduces [1] S8x4096 := by decide
  unfold val_main_v18
  refine (Cert.MaxMinFold.hostReduce_minimumf_single (φ := .f32) (val_main_v15 (F := Ideal) X Y) (val_main_cst_5 (F := Ideal))
    reducesTo_S8x4096x4096_S8x4096_d1 h h_S_ (ix2 b m)).trans ?_
  unfold nearestTo
  refine Finset.fold_congr fun n _ => ?_
  show val_main_v15 (F := Ideal) X Y (h.lift (ix2 b m) n) = _
  rw [lift_d1 h b m n]
  exact v15_apply X Y b n m

/-! ## The Gram form is symmetric -/

/-- The Gram-form distance is symmetric in its two point sets: the two squared norms commute under `+`, and the inner
    product is symmetric term by term because `*` commutes. This holds on all extended reals. -/
theorem dist_symm {N M : ℕ} (x : Fin 8 → Fin N → Fin 64 → EReal) (y : Fin 8 → Fin M → Fin 64 → EReal)
    (b : Fin 8) (n : Fin N) (m : Fin M) : dist x y b n m = dist y x b m n := by
  unfold dist
  have hd : dot x y b n m = dot y x b m n := Finset.sum_congr rfl fun d _ => mul_comm _ _
  rw [hd, add_comm (sqn x b n) (sqn y b m)]

/-- So the distance of point `m` of `y` to the nearest point of `x`, taken with `y` as the first set, is the minimum over
    `x`'s points of the distance array of `(x, y)` at column `m`. -/
theorem nearest_symm {N M : ℕ} (x : Fin 8 → Fin N → Fin 64 → EReal) (y : Fin 8 → Fin M → Fin 64 → EReal)
    (b : Fin 8) (m : Fin M) : nearest y x b m = nearestTo x y b m := by
  unfold nearest nearestTo
  exact Finset.fold_congr fun n _ => dist_symm y x b m n

end Cert.Hausdorff.Ref

end
-- ==== Proof.lean ====
/-
  The certificate: a Hausdorff-style loss of two batches of point sets (8 batches, 4096 points of 64 coordinates each),
  computed by two pallas_calls that tile the 4096 x 4096 pairs of points into 512 x 512 blocks and keep a running minimum
  per point along a grid row, against the plain reference that forms all pairwise distances at once.

  At the extended reals both programs compute the same function. A distance is taken through the Gram form
  sqrt (max (|x|^2 + |y|^2 - 2 <x, y>) floor), with the same floor and the same factor two in both programs; the
  conversions of the arguments to a narrower float format are the identity; the minimum over all 4096 points of the
  other set is the running minimum over the eight tiles of 512; the second pallas_call exchanges the two sets, and the
  Gram form is symmetric because sums and products of extended reals commute; the closing reductions (two maxima and
  their sum) are the same operations in both programs. No step needs the inputs to be finite.

  The three frames: each of the kernel's two readings runs its four stretches (the conversions, the two pallas_calls,
  the closing reductions) to the end and writes no argument array; the reference is a straight line of host operations.
  The idealization rewrote no operation, so there is nothing to preserve.
-/
import proofs.«130966_j6863357739536_1_alg».proof.Defs
import proofs.«130966_j6863357739536_1_alg».proof.Proof.Gen.Kernel
import proofs.«130966_j6863357739536_1_alg».proof.Proof.Gen.KernelIdeal
import proofs.«130966_j6863357739536_1_alg».proof.Proof.Gen.ReferenceIdeal
import proofs.«130966_j6863357739536_1_alg».proof.Proof.Gen.ReferenceIdeal.Run
import proofs.«130966_j6863357739536_1_alg».proof.Proof.Gen.ReferenceIdeal.Read
import proofs.«130966_j6863357739536_1_alg».proof.Proof.Gen.Pre_finite_inputs
import proofs.«130966_j6863357739536_1_alg».proof.Proof.K.Run
import proofs.«130966_j6863357739536_1_alg».proof.Proof.KI.Result
import proofs.«130966_j6863357739536_1_alg».proof.Proof.RefValue
import Idealize.ShloMosaic.Adequacy
import Idealize.ShloMosaic.Init

noncomputable section

namespace Cert.Proof

open Idealize.ShloMosaic Idealize.ShloMosaic.ValueIdx Idealize.SL.Sem Cert.Hausdorff

/-! ## The reference's result is the kernel's function -/

/-- The reference's two arrays of nearest-point distances are the two arrays the pallas_calls leave (the second by the
    symmetry of the Gram form), so its result, the same closing reductions applied to them, is the kernel's. -/
theorem ref_total (X Y : (⟨Cert.ReferenceIdeal.S8x4096x64, .f32⟩ : BufTy).Contents (Elt Ideal)) :
    Cert.ReferenceIdeal.Read.val_main_v20 (F := Ideal) X Y = Cert.KernelIdeal.Rows.total X Y := by
  have h16 : Cert.ReferenceIdeal.Read.val_main_v16 (F := Ideal) X Y = Cert.KernelIdeal.Rows.out0 X Y := by
    funext i
    obtain ⟨b, n, rfl⟩ : ∃ (b : Fin 8) (n : Fin 4096), i = ix2 b n := ⟨i 0, i 1, eq_ix2 i⟩
    exact Cert.Hausdorff.Ref.v16_apply X Y b n
  have h18 : Cert.ReferenceIdeal.Read.val_main_v18 (F := Ideal) X Y = Cert.KernelIdeal.Rows.out1 Y X := by
    funext i
    obtain ⟨b, k, rfl⟩ : ∃ (b : Fin 8) (k : Fin 4096), i = ix2 b k := ⟨i 0, i 1, eq_ix2 i⟩
    exact (Cert.Hausdorff.Ref.v18_apply X Y b k).trans (Cert.Hausdorff.Ref.nearest_symm (pts X) (pts Y) b k).symm
  unfold Cert.ReferenceIdeal.Read.val_main_v20 Cert.ReferenceIdeal.Read.val_main_v17 Cert.ReferenceIdeal.Read.val_main_v19
  rw [h16, h18]
  rfl

/-! ## The claims -/

theorem frame_k : Cert.frame_Kernel := fun m ρ _ => Cert.Kernel.Rows.frame m ρ
theorem frame_ki : Cert.frame_KernelIdeal := fun m ρ _ => Cert.KernelIdeal.Rows.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the extended reals the kernel's result is `total` of the argument arrays and the reference's is its last stage of
    arguments that agree with them: one function. -/
theorem algebraic : Cert.algebraic_KernelIdeal_ReferenceIdeal := by
  intro m ρ m' ρ' _ hagree
  refine ⟨_, Cert.KernelIdeal.Rows.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, ref_total, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
